-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S16x32 : Shape := ⟨2, ![16, 32]⟩
abbrev S32x128 : Shape := ⟨2, ![32, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_
  bcast_S_S16x32 : S_.BroadcastsInDim S16x32 (![] : Fin 0 → Fin S16x32.rank)
  reducesTo_S16x32_S_d0_1 : S16x32.ReducesTo [0, 1] S_
  bcast_S_S32x128 : S_.BroadcastsInDim S32x128 (![] : Fin 0 → Fin S32x128.rank)
  reducesTo_S32x128_S_d0_1 : S32x128.ReducesTo [0, 1] S_

variable [Facts]

def fn_part1 {F : FTy → Type} [FloatOps F] (main_arg4 : FVec F S32x16 .f32) (main_arg5 : FVec F S16x32 .f32) (main_arg6 : FVec F S32x128 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16x32 .f32 := Host.absf main_arg5
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32x128 .f32 := Host.absf main_arg6
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S128x32 .f32) (main_arg3 : FVec F S32x16 .f32) (main_arg4 : FVec F S32x16 .f32) (main_arg5 : FVec F S16x32 .f32) (main_arg6 : FVec F S32x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S16x32 : Shape := ⟨2, ![16, 32]⟩
abbrev S32x128 : Shape := ⟨2, ![32, 128]⟩
abbrev S10000x32 : Shape := ⟨2, ![10000, 32]⟩
abbrev S200x10000 : Shape := ⟨2, ![200, 10000]⟩
abbrev S200x32 : Shape := ⟨2, ![200, 32]⟩
abbrev S32x32 : Shape := ⟨2, ![32, 32]⟩
abbrev S400x10000 : Shape := ⟨2, ![400, 10000]⟩
abbrev S400x32 : Shape := ⟨2, ![400, 32]⟩
abbrev S10000x16 : Shape := ⟨2, ![10000, 16]⟩
abbrev S_ : Shape := ⟨0, ![]⟩
abbrev S400x128 : Shape := ⟨2, ![400, 128]⟩

abbrev nBuf : Space → Nat
  | .hbm => 26
  | .vmem => 34
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S16x32, .f32⟩
  | .hbm, ⟨6, _⟩ => ⟨S32x128, .f32⟩
  | .hbm, ⟨7, _⟩ => ⟨S10000x32, .f32⟩
  | .hbm, ⟨8, _⟩ => ⟨S10000x32, .bf16⟩
  | .hbm, ⟨9, _⟩ => ⟨S10000x32, .f32⟩
  | .hbm, ⟨10, _⟩ => ⟨S10000x10000, .bf16⟩
  | .hbm, ⟨11, _⟩ => ⟨S32x32, .f32⟩
  | .hbm, ⟨12, _⟩ => ⟨S10000x32, .f32⟩
  | .hbm, ⟨13, _⟩ => ⟨S10000x32, .bf16⟩
  | .hbm, ⟨14, _⟩ => ⟨S10000x32, .f32⟩
  | .hbm, ⟨15, _⟩ => ⟨S10000x16, .f32⟩
  | .hbm, ⟨16, _⟩ => ⟨S10000x16, .f32⟩
  | .hbm, ⟨17, _⟩ => ⟨S_, .f32⟩
  | .hbm, ⟨18, _⟩ => ⟨S16x32, .f32⟩
  | .hbm, ⟨19, _⟩ => ⟨S32x32, .f32⟩
  | .hbm, ⟨20, _⟩ => ⟨S10000x32, .f32⟩
  | .hbm, ⟨21, _⟩ => ⟨S10000x32, .bf16⟩
  | .hbm, ⟨22, _⟩ => ⟨S10000x32, .f32⟩
  | .hbm, ⟨23, _⟩ => ⟨S10000x128, .f32⟩
  | .hbm, ⟨24, _⟩ => ⟨S10000x128, .bf16⟩
  | .hbm, ⟨25, _⟩ => ⟨S10000x128, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S200x10000, .f32⟩
  | .local _ .vmem, ⟨4, _⟩ => ⟨S200x10000, .f32⟩
  | .local _ .vmem, ⟨5, _⟩ => ⟨S10000x32, .bf16⟩
  | .local _ .vmem, ⟨6, _⟩ => ⟨S200x32, .f32⟩
  | .local _ .vmem, ⟨7, _⟩ => ⟨S200x32, .f32⟩
  | .local _ .vmem, ⟨8, _⟩ => ⟨S200x10000, .bf16⟩
  | .local _ .vmem, ⟨9, _⟩ => ⟨S200x10000, .bf16⟩
  | .local _ .vmem, ⟨10, _⟩ => ⟨S10000x32, .f32⟩
  | .local _ .vmem, ⟨11, _⟩ => ⟨S32x32, .f32⟩
  | .local _ .vmem, ⟨12, _⟩ => ⟨S10000x32, .f32⟩
  | .local _ .vmem, ⟨13, _⟩ => ⟨S400x10000, .bf16⟩
  | .local _ .vmem, ⟨14, _⟩ => ⟨S400x10000, .bf16⟩
  | .local _ .vmem, ⟨15, _⟩ => ⟨S10000x32, .bf16⟩
  | .local _ .vmem, ⟨16, _⟩ => ⟨S400x32, .f32⟩
  | .local _ .vmem, ⟨17, _⟩ => ⟨S400x32, .f32⟩
  | .local _ .vmem, ⟨18, _⟩ => ⟨S10000x32, .f32⟩
  | .local _ .vmem, ⟨19, _⟩ => ⟨S32x32, .f32⟩
  | .local _ .vmem, ⟨20, _⟩ => ⟨S10000x32, .f32⟩
  | .local _ .vmem, ⟨21, _⟩ => ⟨S400x10000, .bf16⟩
  | .local _ .vmem, ⟨22, _⟩ => ⟨S400x10000, .bf16⟩
  | .local _ .vmem, ⟨23, _⟩ => ⟨S10000x32, .bf16⟩
  | .local _ .vmem, ⟨24, _⟩ => ⟨S400x32, .f32⟩
  | .local _ .vmem, ⟨25, _⟩ => ⟨S400x32, .f32⟩
  | .local _ .vmem, ⟨26, _⟩ => ⟨S10000x32, .f32⟩
  | .local _ .vmem, ⟨27, _⟩ => ⟨S32x128, .f32⟩
  | .local _ .vmem, ⟨28, _⟩ => ⟨S10000x128, .f32⟩
  | .local _ .vmem, ⟨29, _⟩ => ⟨S400x10000, .bf16⟩
  | .local _ .vmem, ⟨30, _⟩ => ⟨S400x10000, .bf16⟩
  | .local _ .vmem, ⟨31, _⟩ => ⟨S10000x128, .bf16⟩
  | .local _ .vmem, ⟨32, _⟩ => ⟨S400x128, .f32⟩
  | .local _ .vmem, ⟨33, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg2_1 : Ref sig .tc := ⟨.vmem, 17, rfl⟩
abbrev cc4_stg0_0 : Ref sig .tc := ⟨.vmem, 18, rfl⟩
abbrev cc4_stg1_0 : Ref sig .tc := ⟨.vmem, 19, rfl⟩
abbrev cc4_stg2_0 : Ref sig .tc := ⟨.vmem, 20, rfl⟩
abbrev cc5_stg0_0 : Ref sig .tc := ⟨.vmem, 21, rfl⟩
abbrev cc5_stg0_1 : Ref sig .tc := ⟨.vmem, 22, rfl⟩
abbrev cc5_stg1_0 : Ref sig .tc := ⟨.vmem, 23, rfl⟩
abbrev cc5_stg2_0 : Ref sig .tc := ⟨.vmem, 24, rfl⟩
abbrev cc5_stg2_1 : Ref sig .tc := ⟨.vmem, 25, rfl⟩
abbrev cc6_stg0_0 : Ref sig .tc := ⟨.vmem, 26, rfl⟩
abbrev cc6_stg1_0 : Ref sig .tc := ⟨.vmem, 27, rfl⟩
abbrev cc6_stg2_0 : Ref sig .tc := ⟨.vmem, 28, rfl⟩
abbrev cc7_stg0_0 : Ref sig .tc := ⟨.vmem, 29, rfl⟩
abbrev cc7_stg0_1 : Ref sig .tc := ⟨.vmem, 30, rfl⟩
abbrev cc7_stg1_0 : Ref sig .tc := ⟨.vmem, 31, rfl⟩
abbrev cc7_stg2_0 : Ref sig .tc := ⟨.vmem, 32, rfl⟩
abbrev cc7_stg2_1 : Ref sig .tc := ⟨.vmem, 33, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem2_1 : DmaSem sig := 17
abbrev cc4_sem0_0 : DmaSem sig := 18
abbrev cc4_sem1_0 : DmaSem sig := 19
abbrev cc4_sem2_0 : DmaSem sig := 20
abbrev cc5_sem0_0 : DmaSem sig := 21
abbrev cc5_sem0_1 : DmaSem sig := 22
abbrev cc5_sem1_0 : DmaSem sig := 23
abbrev cc5_sem2_0 : DmaSem sig := 24
abbrev cc5_sem2_1 : DmaSem sig := 25
abbrev cc6_sem0_0 : DmaSem sig := 26
abbrev cc6_sem1_0 : DmaSem sig := 27
abbrev cc6_sem2_0 : DmaSem sig := 28
abbrev cc7_sem0_0 : DmaSem sig := 29
abbrev cc7_sem0_1 : DmaSem sig := 30
abbrev cc7_sem1_0 : DmaSem sig := 31
abbrev cc7_sem2_0 : DmaSem sig := 32
abbrev cc7_sem2_1 : DmaSem sig := 33

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x10000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S10000x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := .none

abbrev stage4_0 : Fin 1 → Memref sig .tc .vmem S10000x32 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S10000x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x32 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := .none

abbrev stage6_0 : Fin 1 → Memref sig .tc .vmem S10000x32 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S32x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S10000x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x10000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S400x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  shapeCasts_S10000x32_S10000x32 : S10000x32.ShapeCasts S10000x32
  inb_S200x32_S200x32_0_0 : ∀ a, (![0, 0] : Fin 2 → Nat) a + S200x32.size a ≤ S200x32.size a
  h_S200x32 : 0 < S200x32.numel
  concatenates_S32x16_S32x16_S32x32_d1 : Shape.Concatenates [S32x16, S32x16] S32x32 1
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x32_S400x32_0_0 : ∀ a, (![0, 0] : Fin 2 → Nat) a + S400x32.size a ≤ S400x32.size a
  h_S400x32 : 0 < S400x32.numel
  slices_S10000x32_S10000x16_0_0 : S10000x32.Slices ![0, 0] S10000x16
  slices_S10000x32_S10000x16_0_16 : S10000x32.Slices ![0, 16] S10000x16
  bcast_S_S16x32 : S_.BroadcastsInDim S16x32 (![] : Fin 0 → Fin S16x32.rank)
  concatenates_S16x32_S16x32_S32x32_d0 : Shape.Concatenates [S16x32, S16x32] S32x32 0
  inb_S32x128_S32x128_0_0 : ∀ a, (![0, 0] : Fin 2 → Nat) a + S32x128.size a ≤ S32x128.size a
  h_S32x128 : 0 < S32x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  dot_S10000x128_S128x32_S10000x32_1_0_0_1_n_n_wf : DotDims.WF S10000x128 S128x32 S10000x32 [1] [0] [0] [1] [] []
  dot_S200x10000_S10000x32_S200x32_1_0_0_1_n_n_wf : DotDims.WF S200x10000 S10000x32 S200x32 [1] [0] [0] [1] [] []
  dot_S10000x32_S32x32_S10000x32_1_0_0_1_n_n_wf : DotDims.WF S10000x32 S32x32 S10000x32 [1] [0] [0] [1] [] []
  dot_S400x10000_S10000x32_S400x32_1_0_0_1_n_n_wf : DotDims.WF S400x10000 S10000x32 S400x32 [1] [0] [0] [1] [] []
  dot_S10000x32_S32x128_S10000x128_1_0_0_1_n_n_wf : DotDims.WF S10000x32 S32x128 S10000x128 [1] [0] [0] [1] [] []
  dot_S400x10000_S10000x128_S400x128_1_0_0_1_n_n_wf : DotDims.WF S400x10000 S10000x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .bf16 = 32 ∨ (Rect.block (s := S10000x32) S10000x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x32.size a ≤ S10000x32.size a
  hwx1_2 : ∀ i : grid1.Coords, EltTy.bits .f32 = 32 ∨ (Rect.block (s := S10000x32) S200x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x10000.size a ≤ S10000x10000.size a
  hwx1_3 : ∀ i : grid1.Coords, EltTy.bits .bf16 = 32 ∨ (Rect.block (s := S10000x10000) S200x10000.size (cc1_transform_3 i) (hinb1_3 i)).WholeWords (EltTy.packing .bf16)
  hstage2_0 : ∀ j, (stage2_0 j).IsWhole
  hstage2_1 : ∀ j, (stage2_1 j).IsWhole
  hstage2_2 : ∀ j, (stage2_2 j).IsWhole
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S10000x32.size a
  hwx3_1 : ∀ i : grid3.Coords, EltTy.bits .bf16 = 32 ∨ (Rect.block (s := S10000x32) S10000x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x32.size a ≤ S10000x32.size a
  hwx3_2 : ∀ i : grid3.Coords, EltTy.bits .f32 = 32 ∨ (Rect.block (s := S10000x32) S400x32.size (cc3_transform_2 i) (hinb3_2 i)).WholeWords (EltTy.packing .f32)
  hstage4_0 : ∀ j, (stage4_0 j).IsWhole
  hstage4_1 : ∀ j, (stage4_1 j).IsWhole
  hstage4_2 : ∀ j, (stage4_2 j).IsWhole
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x32.size a ≤ S10000x32.size a
  hwx5_1 : ∀ i : grid5.Coords, EltTy.bits .bf16 = 32 ∨ (Rect.block (s := S10000x32) S10000x32.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x32.size a ≤ S10000x32.size a
  hwx5_2 : ∀ i : grid5.Coords, EltTy.bits .f32 = 32 ∨ (Rect.block (s := S10000x32) S400x32.size (cc5_transform_2 i) (hinb5_2 i)).WholeWords (EltTy.packing .f32)
  hstage6_0 : ∀ j, (stage6_0 j).IsWhole
  hstage6_1 : ∀ j, (stage6_1 j).IsWhole
  hstage6_2 : ∀ j, (stage6_2 j).IsWhole
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x10000.size a ≤ S10000x10000.size a
  hwx7_0 : ∀ i : grid7.Coords, EltTy.bits .bf16 = 32 ∨ (Rect.block (s := S10000x10000) S400x10000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x128.size a ≤ S10000x128.size a
  hwx7_1 : ∀ i : grid7.Coords, EltTy.bits .bf16 = 32 ∨ (Rect.block (s := S10000x128) S10000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S400x128.size a ≤ S10000x128.size a
  hwx7_2 : ∀ i : grid7.Coords, EltTy.bits .f32 = 32 ∨ (Rect.block (s := S10000x128) S400x128.size (cc7_transform_2 i) (hinb7_2 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S200x32.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S200x10000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.whole (Memref.whole main_v2_0) false false (stage2_0 0) (sem2_0 0) (Memref.isWhole_whole _) (hstage2_0 0)

abbrev win2_1 : Pipeline.Window sig grid2 :=
  Pipeline.Window.whole (Memref.whole main_v3) false false (stage2_1 0) (sem2_1 0) (Memref.isWhole_whole _) (hstage2_1 0)

abbrev win2_2 : Pipeline.Window sig grid2 :=
  Pipeline.Window.whole (Memref.whole main_v4) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S10000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S400x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.whole (Memref.whole main_v6) false false (stage4_0 0) (sem4_0 0) (Memref.isWhole_whole _) (hstage4_0 0)

abbrev win4_1 : Pipeline.Window sig grid4 :=
  Pipeline.Window.whole (Memref.whole main_v10) false false (stage4_1 0) (sem4_1 0) (Memref.isWhole_whole _) (hstage4_1 0)

abbrev win4_2 : Pipeline.Window sig grid4 :=
  Pipeline.Window.whole (Memref.whole main_v11) true false (stage4_2 0) (sem4_2 0) (Memref.isWhole_whole _) (hstage4_2 0)

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v2_1) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S10000x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v13) S400x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.whole (Memref.whole main_v13) false false (stage6_0 0) (sem6_0 0) (Memref.isWhole_whole _) (hstage6_0 0)

abbrev win6_1 : Pipeline.Window sig grid6 :=
  Pipeline.Window.whole (Memref.whole main_arg6) false false (stage6_1 0) (sem6_1 0) (Memref.isWhole_whole _) (hstage6_1 0)

abbrev win6_2 : Pipeline.Window sig grid6 :=
  Pipeline.Window.whole (Memref.whole main_v14) true false (stage6_2 0) (sem6_2 0) (Memref.isWhole_whole _) (hstage6_2 0)

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v2_1) S400x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v15) S10000x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v16) S400x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S16x32 : Shape := ⟨2, ![16, 32]⟩
abbrev S32x128 : Shape := ⟨2, ![32, 128]⟩
abbrev S10000x32 : Shape := ⟨2, ![10000, 32]⟩
abbrev S_ : Shape := ⟨0, ![]⟩
abbrev S10000x16 : Shape := ⟨2, ![10000, 16]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S16x32, .f32⟩
  | .hbm, ⟨6, _⟩ => ⟨S32x128, .f32⟩
  | .hbm, ⟨7, _⟩ => ⟨S10000x32, .f32⟩
  | .hbm, ⟨8, _⟩ => ⟨S10000x32, .f32⟩
  | .hbm, ⟨9, _⟩ => ⟨S_, .f32⟩
  | .hbm, ⟨10, _⟩ => ⟨S10000x32, .f32⟩
  | .hbm, ⟨11, _⟩ => ⟨S10000x32, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x32, .f32⟩
  | .hbm, ⟨17, _⟩ => ⟨S10000x32, .f32⟩
  | .hbm, ⟨18, _⟩ => ⟨S_, .f32⟩
  | .hbm, ⟨19, _⟩ => ⟨S10000x32, .f32⟩
  | .hbm, ⟨20, _⟩ => ⟨S10000x32, .f32⟩
  | .hbm, ⟨21, _⟩ => ⟨S10000x128, .f32⟩
  | .hbm, ⟨22, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S10000x16_S16x32_S10000x32_1_0_0_1_n_n_wf : DotDims.WF S10000x16 S16x32 S10000x32 [1] [0] [0] [1] [] []
  dot_S10000x32_S32x128_S10000x128_1_0_0_1_n_n_wf : DotDims.WF S10000x32 S32x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.RunNamed.lean ====
/-
  The idealized kernel's run with its three result arrays named.

  The program is eight launches among stretches of host operations.  Its frame proof follows the contents
  of every buffer from one segment boundary to the next (`W0`, …, `W14`) and ends with every unscoped
  buffer holding the last boundary's contents `W14`.  Reading that final state at the three result
  buffers as well as at the seven arguments gives the run stated here: every weakly fair execution
  terminates with `pred`, `mu` and `logvar` at what `W14` holds for them, and the arguments unchanged.
  What `W14` holds there is computed in the modules that follow.
-/
import proofs.«174584_g74380243632355_cont_sun_m_599_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the three results at the
    last boundary's contents and the arguments as launched. -/
theorem run : θ_run defs (onTc (τ := τ) (main (F := F))) ⟨m, fun _ => 0, ρ⟩ (fun r => ∀ c : Dev nD,
      r.2.mem ((c.tc : Thread nD τ).loc main_v16) = W14 m ρ c (Proc.devRef .tc main_v16)
      ∧ r.2.mem ((c.tc : Thread nD τ).loc main_v7) = W14 m ρ c (Proc.devRef .tc main_v7)
      ∧ r.2.mem ((c.tc : Thread nD τ).loc main_v8) = W14 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v16 (by decide)),
       h c _ (mem_uc main_v7 (by decide)),
       h c _ (mem_uc main_v8 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.Named

end
-- ==== Proof.LibMatProduct.lean ====
/-
  Matrix products on the extended reals, entry by entry, and three rearrangements of them.

  `mm A B` is the product of an `M × K` by a `K × N` matrix of extended reals, `(A ⬝ B)(p, c) = ∑ k, A(p, k) · B(k, c)`,
  over index types built from coordinates (`ValueIdx.ix2`); `relu` is the entrywise maximum with zero.

  * An entry of a product depends on one column of the right factor: the left (right) block of columns of
    `A ⬝ [B₁ | B₂]` is `A ⬝ B₁` (`A ⬝ B₂`) — `mm_cols_left`, `mm_cols_right`.
  * A product whose right factor is `B₁` stacked on a block of zeros is the product of the left block of columns
    of the left factor with `B₁` — `mm_pad_zero`.  The other terms of every sum are products with zero, and
    `x * 0 = 0` for EVERY extended real `x`, infinite ones included, so nothing has to be finite.
  * `sum_mul_congr`, `max_sum_mul_congr`: a sum of products (and its maximum with zero) under replacing each
    factor by an equal one — the form in which a block of a product, read where its window puts it in its array,
    meets the product of the whole arrays.
-/
import Idealize.ShloMosaic.PureOps.Ideal
import Idealize.ShloMosaic.Lib.ValueIdx

noncomputable section

open scoped BigOperators

namespace Cert.Lib.MatProduct

open Idealize.ShloMosaic Idealize.ShloMosaic.ValueIdx

variable {M K N : Nat}

/-- An `a × b` matrix of extended reals. -/
abbrev Mat (a b : Nat) : Type := (⟨2, ![a, b]⟩ : Shape).Idx → EReal

/-- The matrix product on the extended reals: entry `(p, c)` is `∑ k, A(p, k) · B(k, c)`. -/
def mm (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem mm_apply (A : (⟨2, ![M, K]⟩ : Shape).Idx → EReal) (B : (⟨2, ![K, N]⟩ : Shape).Idx → EReal)
    (p : Fin M) (c : Fin N) : mm A B (ix2 p c) = ∑ k : Fin K, A (ix2 p k) * B (ix2 k c) := rfl

/-- The entrywise maximum with zero. -/
def relu {s : Shape} (A : s.Idx → EReal) : s.Idx → EReal := fun i => max (A i) 0

theorem relu_apply {s : Shape} (A : s.Idx → EReal) (i : s.Idx) : relu A i = max (A i) 0 := rfl

/-- A sum of products changes by nothing when each factor is replaced by an equal one. -/
theorem sum_mul_congr (f f' g g' : Fin K → EReal) (hf : ∀ k, f k = f' k) (hg : ∀ k, g k = g' k) :
    ∑ k : Fin K, f k * g k = ∑ k : Fin K, f' k * g' k :=
  Finset.sum_congr rfl fun k _ => by rw [hf, hg]

/-- The same under the maximum with zero. -/
theorem max_sum_mul_congr (f f' g g' : Fin K → EReal) (hf : ∀ k, f k = f' k) (hg : ∀ k, g k = g' k) :
    max (∑ k : Fin K, f k * g k) 0 = max (∑ k : Fin K, f' k * g' k) 0 :=
  congrArg (fun s => max s (0 : EReal)) (sum_mul_congr f f' g g' hf hg)

/-- Two matrices that agree entry by entry are equal. -/
theorem ext2 {A B : (⟨2, ![M, N]⟩ : Shape).Idx → EReal}
    (h : ∀ (p : Fin M) (c : Fin N), A (ix2 p c) = B (ix2 p c)) : A = B :=
  funext fun i => by rw [eq_ix2 i]; exact h _ _

/-- The left block of the columns of `A ⬝ [B₁ | B₂]` is `A ⬝ B₁`. -/
theorem mm_cols_left {N₁ N₂ : Nat} (A : (⟨2, ![M, K]⟩ : Shape).Idx → EReal)
    (B : (⟨2, ![K, N₁ + N₂]⟩ : Shape).Idx → EReal) (B₁ : (⟨2, ![K, N₁]⟩ : Shape).Idx → EReal)
    (hB : ∀ (k : Fin K) (c : Fin N₁), B (ix2 k (Fin.castAdd N₂ c)) = B₁ (ix2 k c))
    (p : Fin M) (c : Fin N₁) : mm A B (ix2 p (Fin.castAdd N₂ c)) = mm A B₁ (ix2 p c) := by
  rw [mm_apply, mm_apply]
  exact Finset.sum_congr rfl fun k _ => by rw [hB]

/-- The right block of the columns of `A ⬝ [B₁ | B₂]` is `A ⬝ B₂`. -/
theorem mm_cols_right {N₁ N₂ : Nat} (A : (⟨2, ![M, K]⟩ : Shape).Idx → EReal)
    (B : (⟨2, ![K, N₁ + N₂]⟩ : Shape).Idx → EReal) (B₂ : (⟨2, ![K, N₂]⟩ : Shape).Idx → EReal)
    (hB : ∀ (k : Fin K) (c : Fin N₂), B (ix2 k (Fin.natAdd N₁ c)) = B₂ (ix2 k c))
    (p : Fin M) (c : Fin N₂) : mm A B (ix2 p (Fin.natAdd N₁ c)) = mm A B₂ (ix2 p c) := by
  rw [mm_apply, mm_apply]
  exact Finset.sum_congr rfl fun k _ => by rw [hB]

/-- A product whose right factor is `B₁` stacked on zeros is the product of the left columns with `B₁`:
    the other terms of every sum are products with zero. -/
theorem mm_pad_zero {K₁ K₂ : Nat} (A : (⟨2, ![M, K₁ + K₂]⟩ : Shape).Idx → EReal)
    (B : (⟨2, ![K₁ + K₂, N]⟩ : Shape).Idx → EReal) (A₁ : (⟨2, ![M, K₁]⟩ : Shape).Idx → EReal)
    (B₁ : (⟨2, ![K₁, N]⟩ : Shape).Idx → EReal)
    (hA : ∀ (p : Fin M) (k : Fin K₁), A (ix2 p (Fin.castAdd K₂ k)) = A₁ (ix2 p k))
    (hB : ∀ (k : Fin K₁) (c : Fin N), B (ix2 (Fin.castAdd K₂ k) c) = B₁ (ix2 k c))
    (hZ : ∀ (k : Fin K₂) (c : Fin N), B (ix2 (Fin.natAdd K₁ k) c) = 0) : mm A B = mm A₁ B₁ := by
  refine ext2 fun p c => ?_
  rw [mm_apply, mm_apply, Fin.sum_univ_add]
  have hz : ∑ k : Fin K₂, A (ix2 p (Fin.natAdd K₁ k)) * B (ix2 (Fin.natAdd K₁ k) c) = 0 :=
    Finset.sum_eq_zero fun k _ => by rw [hZ, mul_zero]
  rw [hz, add_zero]
  exact Finset.sum_congr rfl fun k _ => by rw [hA, hB]

end Cert.Lib.MatProduct

end
-- ==== Proof.Spec.lean ====
/-
  The graph-convolution autoencoder on the extended reals, entry by entry.

  For an adjacency matrix `adj` (10000 × 10000), node features `x` (10000 × 128) and the five weight
  matrices, with `A ⬝ B` the matrix product `(A ⬝ B)(p, c) = ∑ k, A(p, k) · B(k, c)` and `relu` the
  entrywise maximum with zero (`LibMatProduct.lean`):

    h1     = relu (adj ⬝ (x ⬝ W1))
    mu     = adj ⬝ (h1 ⬝ W2)          logvar = adj ⬝ (h1 ⬝ W3)
    zd     = relu (adj ⬝ (mu ⬝ Wd1))
    pred   = adj ⬝ (zd ⬝ Wd2)

  Both programs are shown to compute `(pred, mu, logvar)` of their arguments.
-/
import proofs.«174584_g74380243632355_cont_sun_m_599_2_alg».proof.Proof.LibMatProduct

noncomputable section

namespace Cert.Gcn

open Idealize.ShloMosaic Idealize.ShloMosaic.ValueIdx Cert.Lib.MatProduct

/-- The hidden layer `relu (adj ⬝ (x ⬝ W1))`. -/
def hidden (x : Mat 10000 128) (adj : Mat 10000 10000) (W1 : Mat 128 32) : Mat 10000 32 :=
  relu (mm adj (mm x W1))

/-- One encoder head `adj ⬝ (h ⬝ W)` (the mean with `W2`, the log-variance with `W3`). -/
def head (h : Mat 10000 32) (adj : Mat 10000 10000) (W : Mat 32 16) : Mat 10000 16 :=
  mm adj (mm h W)

/-- The decoder `adj ⬝ (relu (adj ⬝ (z ⬝ Wd1)) ⬝ Wd2)` of the latent `z`. -/
def decode (z : Mat 10000 16) (adj : Mat 10000 10000) (Wd1 : Mat 16 32) (Wd2 : Mat 32 128) : Mat 10000 128 :=
  mm adj (mm (relu (mm adj (mm z Wd1))) Wd2)

end Cert.Gcn

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.Region0.lean ====
/-
  Launch 0 of the eight: the feature transform `x ⬝ W1`.

  The launch has no grid: its one point holds the whole of each array.
  The body is one matrix product into a zero accumulator; on the extended reals its entry `(p, q)`
  is `∑ k, A(p, k) · B(k, q)` of the two blocks it loads (changes of float format and reshapes to the same
  shape are the identity).  Reading each block where the window puts it in its array — row `10000·t + p` of the left
  matrix, the right matrix unmoved — what point `t` writes back is block `t` of `A ⬝ B` of the whole
  arrays as the launch finds them, whatever those are (`V`).
-/
import proofs.«174584_g74380243632355_cont_sun_m_599_2_alg».proof.Proof.Gen.KernelIdeal.Frame
import proofs.«174584_g74380243632355_cont_sun_m_599_2_alg».proof.Proof.Spec
import proofs.«174584_g74380243632355_cont_sun_m_599_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Cert.Gcn Cert.Lib.MatProduct
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-- The body's result at entry `(p, q)`, from the two blocks it loads. -/
theorem pay_apply (x0 : Vec Ideal S10000x128 .f32) (x1 : Vec Ideal S128x32 .f32) (p : Fin 10000) (q : Fin 32) :
    k0_pay1 x0 x1 (ix2 p q) = ∑ k : Fin 128, x0 (ix2 p k) * x1 (ix2 k q) := by
  unfold k0_pay1
  exact Cert.Lib.PlainDot.matmul_plain_zero_apply (M := 10000) (K := 128) (N := 32) none x0 x1 p q

/-- The index maps over the grid: the left matrix's block and the result's move down one block of rows per
    point, the right matrix stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its block of `A ⬝ B` of the arrays as the launch finds them. -/
theorem flushed (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  funext j
  obtain ⟨p, q, rfl⟩ : ∃ (p : Fin 10000) (q : Fin 32), j = ix2 p q := ⟨j 0, j 1, eq_ix2 j⟩
  refine (pay_apply (iblk0 V c 0 t) (iblk0 V c 1 t) p q).trans ?_
  obtain ⟨e0, e1, e2, e3, e4, e5⟩ := idx t
  refine sum_mul_congr (fun k => iblk0 V c 0 t (ix2 p k))
    (fun k => V c main_arg0 (ix2 ((((cfg0.win 2).blk t).view.emb (ix2 p q)) 0) k))
    (fun k => iblk0 V c 1 t (ix2 k q))
    (fun k => V c main_arg2 (ix2 k ((((cfg0.win 2).blk t).view.emb (ix2 p q)) 1))) (fun k => ?_) (fun k => ?_)
  · show V c main_arg0 (((cfg0.win 0).blk t).view.emb (ix2 p k)) = V c main_arg0 (ix2 ((((cfg0.win 2).blk t).view.emb (ix2 p q)) 0) k)
    have h0 : ((cfg0.win 0).blk t).view.emb (ix2 p k) = ix2 ((((cfg0.win 2).blk t).view.emb (ix2 p q)) 0) k := by
      funext a; apply Fin.ext
      match a with
      | ⟨0, _⟩ => show win0_0.index t (0 : Fin 2) * 10000 + 1 * p.val = win0_2.index t (0 : Fin 2) * 10000 + 1 * p.val; omega
      | ⟨1, _⟩ => show win0_0.index t (1 : Fin 2) * 128 + 1 * k.val = k.val; omega
    exact congrArg (V c main_arg0) h0
  · show V c main_arg2 (((cfg0.win 1).blk t).view.emb (ix2 k q)) = V c main_arg2 (ix2 k ((((cfg0.win 2).blk t).view.emb (ix2 p q)) 1))
    have h1 : ((cfg0.win 1).blk t).view.emb (ix2 k q) = ix2 k ((((cfg0.win 2).blk t).view.emb (ix2 p q)) 1) := by
      funext a; apply Fin.ext
      match a with
      | ⟨0, _⟩ => show win0_1.index t (0 : Fin 2) * 128 + 1 * k.val = k.val; omega
      | ⟨1, _⟩ => show win0_1.index t (1 : Fin 2) * 32 + 1 * q.val = win0_2.index t (1 : Fin 2) * 32 + 1 * q.val; omega
    exact congrArg (V c main_arg2) h1

/-- An entry of the result array is in point `t`'s block iff its row is among the block's 10000 rows. -/
theorem mem_blk (t : Fin cfg0.N) (i : S10000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v0).slice (win0_2.rect t)).set ↔ _
  rw [View.set_slice_whole, Rect.mem_set_unit]
  exact Iff.rfl

/-- Every entry is in the block of the point its row falls in. -/
theorem cover (i : S10000x32.Idx) : ∃ t : Fin cfg0.N, (cfg0.win 2).flush t = true ∧ i ∈ ((cfg0.win 2).blk t).view.set := by
  have hi0 : (i 0).val < 10000 := (i 0).isLt
  have hi1 : (i 1).val < 32 := (i 1).isLt
  have hN : cfg0.N = 1 := N_0
  refine ⟨⟨(i 0).val / 10000, by rw [hN]; omega⟩, flush0_2 _, ?_⟩
  rw [mem_blk]
  obtain ⟨e0, e1, e2, e3, e4, e5⟩ := idx ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 32 ≤ (i 1).val ∧ (i 1).val < win0_2.index _ (1 : Fin 2) * 32 + 32
    rw [e5]; omega

/-- The launch leaves in its result array `A ⬝ B` of the two arrays it reads. -/
theorem final (c : Dev nD) : (dat0 V c).arrAt 2 cfg0.N = mm (V c main_arg0) (V c main_arg2) :=
  (dat0 V c).arrAt_eq_of_cover 2 _ (fun t _ => flushed V c t) cover

end Cert.KernelIdeal.Region0

end
-- ==== Proof.Region1.lean ====
/-
  Launch 1 of the eight: the first graph convolution `relu (adj ⬝ s)` and, beside it, a copy of the adjacency matrix.

  Grid point `t` of the 50 holds rows `200·t … 200·t + 199` of the left matrix and of the result, and the whole right matrix;
  the 50 row blocks tile the 10000 rows, so the result array ends holding the product of the whole arrays.
  The body is one matrix product into a zero accumulator, followed by the maximum with zero; on the extended reals its entry `(p, q)`
  is `max (∑ k, A(p, k) · B(k, q)) 0` of the two blocks it loads (changes of float format and reshapes to the same
  shape are the identity).  Reading each block where the window puts it in its array — row `200·t + p` of the left
  matrix, the right matrix unmoved — what point `t` writes back is block `t` of `relu (A ⬝ B)` of the whole
  arrays as the launch finds them, whatever those are (`V`).
-/
import proofs.«174584_g74380243632355_cont_sun_m_599_2_alg».proof.Proof.Gen.KernelIdeal.Frame
import proofs.«174584_g74380243632355_cont_sun_m_599_2_alg».proof.Proof.Spec
import proofs.«174584_g74380243632355_cont_sun_m_599_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen Cert.Gcn Cert.Lib.MatProduct
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-- The body's result at entry `(p, q)`, from the two blocks it loads. -/
theorem pay_apply (x0 : Vec Ideal S200x10000 .f32) (x1 : Vec Ideal S10000x32 .bf16) (p : Fin 200) (q : Fin 32) :
    k1_pay2 x0 x1 (ix2 p q) = max (∑ k : Fin 10000, x0 (ix2 p k) * x1 (ix2 k q)) 0 := by
  unfold k1_pay2 k1_pay1
  rw [shapeCast_self]
  exact congrArg₂ max (Cert.Lib.PlainDot.matmul_plain_zero_apply (M := 200) (K := 10000) (N := 32) none (truncf .bf16 x0 bitsLt_bf16_f32) x1 p q) Ideal.ofBits_zero_f32

/-- The index maps over the grid: the left matrix's block and the result's move down one block of rows per
    point, the right matrix stays. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The copy's blocks move with the adjacency matrix's. -/
theorem idx_copy : ∀ t : Fin cfg1.N, win1_3.index t (0 : Fin 2) = t.val ∧ win1_3.index t (1 : Fin 2) = 0 :=
  (by decide +kernel : ∀ t : Fin grid1.N, _)

/-- What point `t` writes back is its block of `relu (A ⬝ B)` of the arrays as the launch finds them. -/
theorem flushed (c : Dev nD) (t : Fin cfg1.N) :
    (dat1 V c).flushed 2 t = ((cfg1.win 2).blk t).view.read (Elt Ideal) (relu (mm (V c main_arg1) (V c main_v1))) := by
  show (cfg1.win 2).cut (grid1.coords t) ((dat1 V c).after 2 t) = _
  rw [after1_2]
  unfold out1_2
  rw [View.canon_unit_zero hz]
  simp only [View.ld_unit_zero (S := S200x10000) hz, View.ld_unit_zero (S := S10000x32) hz]
  funext j
  obtain ⟨p, q, rfl⟩ : ∃ (p : Fin 200) (q : Fin 32), j = ix2 p q := ⟨j 0, j 1, eq_ix2 j⟩
  refine (pay_apply (iblk1 V c 0 t) (iblk1 V c 1 t) p q).trans ?_
  obtain ⟨e0, e1, e2, e3, e4, e5⟩ := idx t
  refine max_sum_mul_congr (fun k => iblk1 V c 0 t (ix2 p k))
    (fun k => V c main_arg1 (ix2 ((((cfg1.win 2).blk t).view.emb (ix2 p q)) 0) k))
    (fun k => iblk1 V c 1 t (ix2 k q))
    (fun k => V c main_v1 (ix2 k ((((cfg1.win 2).blk t).view.emb (ix2 p q)) 1))) (fun k => ?_) (fun k => ?_)
  · show V c main_arg1 (((cfg1.win 0).blk t).view.emb (ix2 p k)) = V c main_arg1 (ix2 ((((cfg1.win 2).blk t).view.emb (ix2 p q)) 0) k)
    have h0 : ((cfg1.win 0).blk t).view.emb (ix2 p k) = ix2 ((((cfg1.win 2).blk t).view.emb (ix2 p q)) 0) k := by
      funext a; apply Fin.ext
      match a with
      | ⟨0, _⟩ => show win1_0.index t (0 : Fin 2) * 200 + 1 * p.val = win1_2.index t (0 : Fin 2) * 200 + 1 * p.val; omega
      | ⟨1, _⟩ => show win1_0.index t (1 : Fin 2) * 10000 + 1 * k.val = k.val; omega
    exact congrArg (V c main_arg1) h0
  · show V c main_v1 (((cfg1.win 1).blk t).view.emb (ix2 k q)) = V c main_v1 (ix2 k ((((cfg1.win 2).blk t).view.emb (ix2 p q)) 1))
    have h1 : ((cfg1.win 1).blk t).view.emb (ix2 k q) = ix2 k ((((cfg1.win 2).blk t).view.emb (ix2 p q)) 1) := by
      funext a; apply Fin.ext
      match a with
      | ⟨0, _⟩ => show win1_1.index t (0 : Fin 2) * 10000 + 1 * k.val = k.val; omega
      | ⟨1, _⟩ => show win1_1.index t (1 : Fin 2) * 32 + 1 * q.val = win1_2.index t (1 : Fin 2) * 32 + 1 * q.val; omega
    exact congrArg (V c main_v1) h1

/-- An entry of the result array is in point `t`'s block iff its row is among the block's 200 rows. -/
theorem mem_blk (t : Fin cfg1.N) (i : S10000x32.Idx) :
    i ∈ ((cfg1.win 2).blk t).view.set ↔ ∀ a : Fin 2, win1_2.index t a * S200x32.size a ≤ (i a).val ∧ (i a).val < win1_2.index t a * S200x32.size a + S200x32.size a := by
  show i ∈ ((View.whole main_v2_0).slice (win1_2.rect t)).set ↔ _
  rw [View.set_slice_whole, Rect.mem_set_unit]
  exact Iff.rfl

/-- Every entry is in the block of the point its row falls in. -/
theorem cover (i : S10000x32.Idx) : ∃ t : Fin cfg1.N, (cfg1.win 2).flush t = true ∧ i ∈ ((cfg1.win 2).blk t).view.set := by
  have hi0 : (i 0).val < 10000 := (i 0).isLt
  have hi1 : (i 1).val < 32 := (i 1).isLt
  have hN : cfg1.N = 50 := N_1
  refine ⟨⟨(i 0).val / 200, by rw [hN]; omega⟩, flush1_2 _, ?_⟩
  rw [mem_blk]
  obtain ⟨e0, e1, e2, e3, e4, e5⟩ := idx ⟨(i 0).val / 200, by rw [hN]; omega⟩
  intro a
  match a with
  | ⟨0, _⟩ =>
    show win1_2.index _ (0 : Fin 2) * 200 ≤ (i 0).val ∧ (i 0).val < win1_2.index _ (0 : Fin 2) * 200 + 200
    rw [e4]; show (i 0).val / 200 * 200 ≤ (i 0).val ∧ (i 0).val < (i 0).val / 200 * 200 + 200; omega
  | ⟨1, _⟩ =>
    show win1_2.index _ (1 : Fin 2) * 32 ≤ (i 1).val ∧ (i 1).val < win1_2.index _ (1 : Fin 2) * 32 + 32
    rw [e5]; omega

/-- The launch leaves in its result array `relu (A ⬝ B)` of the two arrays it reads. -/
theorem final (c : Dev nD) : (dat1 V c).arrAt 2 cfg1.N = relu (mm (V c main_arg1) (V c main_v1)) :=
  (dat1 V c).arrAt_eq_of_cover 2 _ (fun t _ => flushed V c t) cover

/-! ## The copy of the adjacency matrix (the launch's second result) -/

/-- What point `t` writes back to the copy is its block of the adjacency matrix itself: the change of float
    format is the identity on the extended reals. -/
theorem flushed_copy (c : Dev nD) (t : Fin cfg1.N) :
    (dat1 V c).flushed 3 t = ((cfg1.win 3).blk t).view.read (Elt Ideal) (V c main_arg1) := by
  show (cfg1.win 3).cut (grid1.coords t) ((dat1 V c).after 3 t) = _
  rw [after1_3]
  unfold out1_3
  rw [View.canon_unit_zero hz]
  simp only [View.ld_unit_zero (S := S200x10000) hz]
  funext j
  obtain ⟨p, q, rfl⟩ : ∃ (p : Fin 200) (q : Fin 10000), j = ix2 p q := ⟨j 0, j 1, eq_ix2 j⟩
  obtain ⟨e0, e1, e2, e3, e4, e5⟩ := idx t
  obtain ⟨e6, e7⟩ := idx_copy t
  show V c main_arg1 (((cfg1.win 0).blk t).view.emb (ix2 p q)) = V c main_arg1 (((cfg1.win 3).blk t).view.emb (ix2 p q))
  have h0 : ((cfg1.win 0).blk t).view.emb (ix2 p q) = ((cfg1.win 3).blk t).view.emb (ix2 p q) := by
    funext a; apply Fin.ext
    match a with
    | ⟨0, _⟩ => show win1_0.index t (0 : Fin 2) * 200 + 1 * p.val = win1_3.index t (0 : Fin 2) * 200 + 1 * p.val; omega
    | ⟨1, _⟩ => show win1_0.index t (1 : Fin 2) * 10000 + 1 * q.val = win1_3.index t (1 : Fin 2) * 10000 + 1 * q.val; omega
  exact congrArg (V c main_arg1) h0

theorem mem_blk_copy (t : Fin cfg1.N) (i : S10000x10000.Idx) :
    i ∈ ((cfg1.win 3).blk t).view.set ↔ ∀ a : Fin 2, win1_3.index t a * S200x10000.size a ≤ (i a).val ∧ (i a).val < win1_3.index t a * S200x10000.size a + S200x10000.size a := by
  show i ∈ ((View.whole main_v2_1).slice (win1_3.rect t)).set ↔ _
  rw [View.set_slice_whole, Rect.mem_set_unit]
  exact Iff.rfl

theorem cover_copy (i : S10000x10000.Idx) : ∃ t : Fin cfg1.N, (cfg1.win 3).flush t = true ∧ i ∈ ((cfg1.win 3).blk t).view.set := by
  have hi0 : (i 0).val < 10000 := (i 0).isLt
  have hi1 : (i 1).val < 10000 := (i 1).isLt
  have hN : cfg1.N = 50 := N_1
  refine ⟨⟨(i 0).val / 200, by rw [hN]; omega⟩, flush1_3 _, ?_⟩
  rw [mem_blk_copy]
  obtain ⟨e6, e7⟩ := idx_copy ⟨(i 0).val / 200, by rw [hN]; omega⟩
  intro a
  match a with
  | ⟨0, _⟩ =>
    show win1_3.index _ (0 : Fin 2) * 200 ≤ (i 0).val ∧ (i 0).val < win1_3.index _ (0 : Fin 2) * 200 + 200
    rw [e6]; show (i 0).val / 200 * 200 ≤ (i 0).val ∧ (i 0).val < (i 0).val / 200 * 200 + 200; omega
  | ⟨1, _⟩ =>
    show win1_3.index _ (1 : Fin 2) * 10000 ≤ (i 1).val ∧ (i 1).val < win1_3.index _ (1 : Fin 2) * 10000 + 10000
    rw [e7]; omega

/-- The launch leaves in its second result array the adjacency matrix as it found it. -/
theorem final_copy (c : Dev nD) : (dat1 V c).arrAt 3 cfg1.N = V c main_arg1 :=
  (dat1 V c).arrAt_eq_of_cover 3 _ (fun t _ => flushed_copy V c t) cover_copy

end Cert.KernelIdeal.Region1

end
-- ==== Proof.Region2.lean ====
/-
  Launch 2 of the eight: the product of the hidden layer with the two encoder weights side by side.

  The launch has no grid: its one point holds the whole of each array.
  The body is one matrix product into a zero accumulator; on the extended reals its entry `(p, q)`
  is `∑ k, A(p, k) · B(k, q)` of the two blocks it loads (changes of float format and reshapes to the same
  shape are the identity).  Reading each block where the window puts it in its array — row `10000·t + p` of the left
  matrix, the right matrix unmoved — what point `t` writes back is block `t` of `A ⬝ B` of the whole
  arrays as the launch finds them, whatever those are (`V`).
-/
import proofs.«174584_g74380243632355_cont_sun_m_599_2_alg».proof.Proof.Gen.KernelIdeal.Frame
import proofs.«174584_g74380243632355_cont_sun_m_599_2_alg».proof.Proof.Spec
import proofs.«174584_g74380243632355_cont_sun_m_599_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Cert.Gcn Cert.Lib.MatProduct
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-- The body's result at entry `(p, q)`, from the two blocks it loads. -/
theorem pay_apply (x0 : Vec Ideal S10000x32 .f32) (x1 : Vec Ideal S32x32 .f32) (p : Fin 10000) (q : Fin 32) :
    k2_pay1 x0 x1 (ix2 p q) = ∑ k : Fin 32, x0 (ix2 p k) * x1 (ix2 k q) := by
  unfold k2_pay1
  rw [shapeCast_self, shapeCast_self]
  exact Cert.Lib.PlainDot.matmul_plain_zero_apply (M := 10000) (K := 32) (N := 32) none x0 x1 p q

/-- The index maps over the grid: the left matrix's block and the result's move down one block of rows per
    point, the right matrix stays. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is its block of `A ⬝ B` of the arrays as the launch finds them. -/
theorem flushed (c : Dev nD) (t : Fin cfg2.N) :
    (dat2 V c).flushed 2 t = ((cfg2.win 2).blk t).view.read (Elt Ideal) (mm (V c main_v2_0) (V c main_v3)) := by
  show (cfg2.win 2).cut (grid2.coords t) ((dat2 V c).after 2 t) = _
  rw [after2_2]
  unfold out2_2
  rw [View.canon_unit_zero hz]
  simp only [View.ld_unit_zero (S := S10000x32) hz, View.ld_unit_zero (S := S32x32) hz]
  funext j
  obtain ⟨p, q, rfl⟩ : ∃ (p : Fin 10000) (q : Fin 32), j = ix2 p q := ⟨j 0, j 1, eq_ix2 j⟩
  refine (pay_apply (iblk2 V c 0 t) (iblk2 V c 1 t) p q).trans ?_
  obtain ⟨e0, e1, e2, e3, e4, e5⟩ := idx t
  refine sum_mul_congr (fun k => iblk2 V c 0 t (ix2 p k))
    (fun k => V c main_v2_0 (ix2 ((((cfg2.win 2).blk t).view.emb (ix2 p q)) 0) k))
    (fun k => iblk2 V c 1 t (ix2 k q))
    (fun k => V c main_v3 (ix2 k ((((cfg2.win 2).blk t).view.emb (ix2 p q)) 1))) (fun k => ?_) (fun k => ?_)
  · show V c main_v2_0 (((cfg2.win 0).blk t).view.emb (ix2 p k)) = V c main_v2_0 (ix2 ((((cfg2.win 2).blk t).view.emb (ix2 p q)) 0) k)
    have h0 : ((cfg2.win 0).blk t).view.emb (ix2 p k) = ix2 ((((cfg2.win 2).blk t).view.emb (ix2 p q)) 0) k := by
      funext a; apply Fin.ext
      match a with
      | ⟨0, _⟩ => show win2_0.index t (0 : Fin 2) * 10000 + 1 * p.val = win2_2.index t (0 : Fin 2) * 10000 + 1 * p.val; omega
      | ⟨1, _⟩ => show win2_0.index t (1 : Fin 2) * 32 + 1 * k.val = k.val; omega
    exact congrArg (V c main_v2_0) h0
  · show V c main_v3 (((cfg2.win 1).blk t).view.emb (ix2 k q)) = V c main_v3 (ix2 k ((((cfg2.win 2).blk t).view.emb (ix2 p q)) 1))
    have h1 : ((cfg2.win 1).blk t).view.emb (ix2 k q) = ix2 k ((((cfg2.win 2).blk t).view.emb (ix2 p q)) 1) := by
      funext a; apply Fin.ext
      match a with
      | ⟨0, _⟩ => show win2_1.index t (0 : Fin 2) * 32 + 1 * k.val = k.val; omega
      | ⟨1, _⟩ => show win2_1.index t (1 : Fin 2) * 32 + 1 * q.val = win2_2.index t (1 : Fin 2) * 32 + 1 * q.val; omega
    exact congrArg (V c main_v3) h1

/-- An entry of the result array is in point `t`'s block iff its row is among the block's 10000 rows. -/
theorem mem_blk (t : Fin cfg2.N) (i : S10000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v4).slice (win2_2.rect t)).set ↔ _
  rw [View.set_slice_whole, Rect.mem_set_unit]
  exact Iff.rfl

/-- Every entry is in the block of the point its row falls in. -/
theorem cover (i : S10000x32.Idx) : ∃ t : Fin cfg2.N, (cfg2.win 2).flush t = true ∧ i ∈ ((cfg2.win 2).blk t).view.set := by
  have hi0 : (i 0).val < 10000 := (i 0).isLt
  have hi1 : (i 1).val < 32 := (i 1).isLt
  have hN : cfg2.N = 1 := N_2
  refine ⟨⟨(i 0).val / 10000, by rw [hN]; omega⟩, flush2_2 _, ?_⟩
  rw [mem_blk]
  obtain ⟨e0, e1, e2, e3, e4, e5⟩ := idx ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e4]; show (i 0).val / 10000 * 10000 ≤ (i 0).val ∧ (i 0).val < (i 0).val / 10000 * 10000 + 10000; omega
  | ⟨1, _⟩ =>
    show win2_2.index _ (1 : Fin 2) * 32 ≤ (i 1).val ∧ (i 1).val < win2_2.index _ (1 : Fin 2) * 32 + 32
    rw [e5]; omega

/-- The launch leaves in its result array `A ⬝ B` of the two arrays it reads. -/
theorem final (c : Dev nD) : (dat2 V c).arrAt 2 cfg2.N = mm (V c main_v2_0) (V c main_v3) :=
  (dat2 V c).arrAt_eq_of_cover 2 _ (fun t _ => flushed V c t) cover

end Cert.KernelIdeal.Region2

end
-- ==== Proof.Region3.lean ====
/-
  Launch 3 of the eight: the two encoder heads at once, `adj ⬝ s`.

  Grid point `t` of the 25 holds rows `400·t … 400·t + 399` of the left matrix and of the result, and the whole right matrix;
  the 25 row blocks tile the 10000 rows, so the result array ends holding the product of the whole arrays.
  The body is one matrix product into a zero accumulator; on the extended reals its entry `(p, q)`
  is `∑ k, A(p, k) · B(k, q)` of the two blocks it loads (changes of float format and reshapes to the same
  shape are the identity).  Reading each block where the window puts it in its array — row `400·t + p` of the left
  matrix, the right matrix unmoved — what point `t` writes back is block `t` of `A ⬝ B` of the whole
  arrays as the launch finds them, whatever those are (`V`).
-/
import proofs.«174584_g74380243632355_cont_sun_m_599_2_alg».proof.Proof.Gen.KernelIdeal.Frame
import proofs.«174584_g74380243632355_cont_sun_m_599_2_alg».proof.Proof.Spec
import proofs.«174584_g74380243632355_cont_sun_m_599_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region3

open Cert.KernelIdeal Cert.KernelIdeal.Gen Cert.Gcn Cert.Lib.MatProduct
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-- The body's result at entry `(p, q)`, from the two blocks it loads. -/
theorem pay_apply (x0 : Vec Ideal S400x10000 .bf16) (x1 : Vec Ideal S10000x32 .bf16) (p : Fin 400) (q : Fin 32) :
    k3_pay1 x0 x1 (ix2 p q) = ∑ k : Fin 10000, x0 (ix2 p k) * x1 (ix2 k q) := by
  unfold k3_pay1
  rw [shapeCast_self, shapeCast_self]
  exact Cert.Lib.PlainDot.matmul_plain_zero_apply (M := 400) (K := 10000) (N := 32) none x0 x1 p q

/-- The index maps over the grid: the left matrix's block and the result's move down one block of rows per
    point, the right matrix stays. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is its block of `A ⬝ B` of the arrays as the launch finds them. -/
theorem flushed (c : Dev nD) (t : Fin cfg3.N) :
    (dat3 V c).flushed 2 t = ((cfg3.win 2).blk t).view.read (Elt Ideal) (mm (V c main_v2_1) (V c main_v5)) := by
  show (cfg3.win 2).cut (grid3.coords t) ((dat3 V c).after 2 t) = _
  rw [after3_2]
  unfold out3_2
  rw [View.canon_unit_zero hz]
  simp only [View.ld_unit_zero (S := S400x10000) hz, View.ld_unit_zero (S := S10000x32) hz]
  funext j
  obtain ⟨p, q, rfl⟩ : ∃ (p : Fin 400) (q : Fin 32), j = ix2 p q := ⟨j 0, j 1, eq_ix2 j⟩
  refine (pay_apply (iblk3 V c 0 t) (iblk3 V c 1 t) p q).trans ?_
  obtain ⟨e0, e1, e2, e3, e4, e5⟩ := idx t
  refine sum_mul_congr (fun k => iblk3 V c 0 t (ix2 p k))
    (fun k => V c main_v2_1 (ix2 ((((cfg3.win 2).blk t).view.emb (ix2 p q)) 0) k))
    (fun k => iblk3 V c 1 t (ix2 k q))
    (fun k => V c main_v5 (ix2 k ((((cfg3.win 2).blk t).view.emb (ix2 p q)) 1))) (fun k => ?_) (fun k => ?_)
  · show V c main_v2_1 (((cfg3.win 0).blk t).view.emb (ix2 p k)) = V c main_v2_1 (ix2 ((((cfg3.win 2).blk t).view.emb (ix2 p q)) 0) k)
    have h0 : ((cfg3.win 0).blk t).view.emb (ix2 p k) = ix2 ((((cfg3.win 2).blk t).view.emb (ix2 p q)) 0) k := by
      funext a; apply Fin.ext
      match a with
      | ⟨0, _⟩ => show win3_0.index t (0 : Fin 2) * 400 + 1 * p.val = win3_2.index t (0 : Fin 2) * 400 + 1 * p.val; omega
      | ⟨1, _⟩ => show win3_0.index t (1 : Fin 2) * 10000 + 1 * k.val = k.val; omega
    exact congrArg (V c main_v2_1) h0
  · show V c main_v5 (((cfg3.win 1).blk t).view.emb (ix2 k q)) = V c main_v5 (ix2 k ((((cfg3.win 2).blk t).view.emb (ix2 p q)) 1))
    have h1 : ((cfg3.win 1).blk t).view.emb (ix2 k q) = ix2 k ((((cfg3.win 2).blk t).view.emb (ix2 p q)) 1) := by
      funext a; apply Fin.ext
      match a with
      | ⟨0, _⟩ => show win3_1.index t (0 : Fin 2) * 10000 + 1 * k.val = k.val; omega
      | ⟨1, _⟩ => show win3_1.index t (1 : Fin 2) * 32 + 1 * q.val = win3_2.index t (1 : Fin 2) * 32 + 1 * q.val; omega
    exact congrArg (V c main_v5) h1

/-- An entry of the result array is in point `t`'s block iff its row is among the block's 400 rows. -/
theorem mem_blk (t : Fin cfg3.N) (i : S10000x32.Idx) :
    i ∈ ((cfg3.win 2).blk t).view.set ↔ ∀ a : Fin 2, win3_2.index t a * S400x32.size a ≤ (i a).val ∧ (i a).val < win3_2.index t a * S400x32.size a + S400x32.size a := by
  show i ∈ ((View.whole main_v6).slice (win3_2.rect t)).set ↔ _
  rw [View.set_slice_whole, Rect.mem_set_unit]
  exact Iff.rfl

/-- Every entry is in the block of the point its row falls in. -/
theorem cover (i : S10000x32.Idx) : ∃ t : Fin cfg3.N, (cfg3.win 2).flush t = true ∧ i ∈ ((cfg3.win 2).blk t).view.set := by
  have hi0 : (i 0).val < 10000 := (i 0).isLt
  have hi1 : (i 1).val < 32 := (i 1).isLt
  have hN : cfg3.N = 25 := N_3
  refine ⟨⟨(i 0).val / 400, by rw [hN]; omega⟩, flush3_2 _, ?_⟩
  rw [mem_blk]
  obtain ⟨e0, e1, e2, e3, e4, e5⟩ := idx ⟨(i 0).val / 400, by rw [hN]; omega⟩
  intro a
  match a with
  | ⟨0, _⟩ =>
    show win3_2.index _ (0 : Fin 2) * 400 ≤ (i 0).val ∧ (i 0).val < win3_2.index _ (0 : Fin 2) * 400 + 400
    rw [e4]; show (i 0).val / 400 * 400 ≤ (i 0).val ∧ (i 0).val < (i 0).val / 400 * 400 + 400; omega
  | ⟨1, _⟩ =>
    show win3_2.index _ (1 : Fin 2) * 32 ≤ (i 1).val ∧ (i 1).val < win3_2.index _ (1 : Fin 2) * 32 + 32
    rw [e5]; omega

/-- The launch leaves in its result array `A ⬝ B` of the two arrays it reads. -/
theorem final (c : Dev nD) : (dat3 V c).arrAt 2 cfg3.N = mm (V c main_v2_1) (V c main_v5) :=
  (dat3 V c).arrAt_eq_of_cover 2 _ (fun t _ => flushed V c t) cover

end Cert.KernelIdeal.Region3

end
-- ==== Proof.Region4.lean ====
/-
  Launch 4 of the eight: the product of both heads with the first decoder weight stacked on zeros.

  The launch has no grid: its one point holds the whole of each array.
  The body is one matrix product into a zero accumulator; on the extended reals its entry `(p, q)`
  is `∑ k, A(p, k) · B(k, q)` of the two blocks it loads (changes of float format and reshapes to the same
  shape are the identity).  Reading each block where the window puts it in its array — row `10000·t + p` of the left
  matrix, the right matrix unmoved — what point `t` writes back is block `t` of `A ⬝ B` of the whole
  arrays as the launch finds them, whatever those are (`V`).
-/
import proofs.«174584_g74380243632355_cont_sun_m_599_2_alg».proof.Proof.Gen.KernelIdeal.Frame
import proofs.«174584_g74380243632355_cont_sun_m_599_2_alg».proof.Proof.Spec
import proofs.«174584_g74380243632355_cont_sun_m_599_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region4

open Cert.KernelIdeal Cert.KernelIdeal.Gen Cert.Gcn Cert.Lib.MatProduct
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-- The body's result at entry `(p, q)`, from the two blocks it loads. -/
theorem pay_apply (x0 : Vec Ideal S10000x32 .f32) (x1 : Vec Ideal S32x32 .f32) (p : Fin 10000) (q : Fin 32) :
    k4_pay1 x0 x1 (ix2 p q) = ∑ k : Fin 32, x0 (ix2 p k) * x1 (ix2 k q) := by
  unfold k4_pay1
  rw [shapeCast_self, shapeCast_self]
  exact Cert.Lib.PlainDot.matmul_plain_zero_apply (M := 10000) (K := 32) (N := 32) none x0 x1 p q

/-- The index maps over the grid: the left matrix's block and the result's move down one block of rows per
    point, the right matrix stays. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is its block of `A ⬝ B` of the arrays as the launch finds them. -/
theorem flushed (c : Dev nD) (t : Fin cfg4.N) :
    (dat4 V c).flushed 2 t = ((cfg4.win 2).blk t).view.read (Elt Ideal) (mm (V c main_v6) (V c main_v10)) := by
  show (cfg4.win 2).cut (grid4.coords t) ((dat4 V c).after 2 t) = _
  rw [after4_2]
  unfold out4_2
  rw [View.canon_unit_zero hz]
  simp only [View.ld_unit_zero (S := S10000x32) hz, View.ld_unit_zero (S := S32x32) hz]
  funext j
  obtain ⟨p, q, rfl⟩ : ∃ (p : Fin 10000) (q : Fin 32), j = ix2 p q := ⟨j 0, j 1, eq_ix2 j⟩
  refine (pay_apply (iblk4 V c 0 t) (iblk4 V c 1 t) p q).trans ?_
  obtain ⟨e0, e1, e2, e3, e4, e5⟩ := idx t
  refine sum_mul_congr (fun k => iblk4 V c 0 t (ix2 p k))
    (fun k => V c main_v6 (ix2 ((((cfg4.win 2).blk t).view.emb (ix2 p q)) 0) k))
    (fun k => iblk4 V c 1 t (ix2 k q))
    (fun k => V c main_v10 (ix2 k ((((cfg4.win 2).blk t).view.emb (ix2 p q)) 1))) (fun k => ?_) (fun k => ?_)
  · show V c main_v6 (((cfg4.win 0).blk t).view.emb (ix2 p k)) = V c main_v6 (ix2 ((((cfg4.win 2).blk t).view.emb (ix2 p q)) 0) k)
    have h0 : ((cfg4.win 0).blk t).view.emb (ix2 p k) = ix2 ((((cfg4.win 2).blk t).view.emb (ix2 p q)) 0) k := by
      funext a; apply Fin.ext
      match a with
      | ⟨0, _⟩ => show win4_0.index t (0 : Fin 2) * 10000 + 1 * p.val = win4_2.index t (0 : Fin 2) * 10000 + 1 * p.val; omega
      | ⟨1, _⟩ => show win4_0.index t (1 : Fin 2) * 32 + 1 * k.val = k.val; omega
    exact congrArg (V c main_v6) h0
  · show V c main_v10 (((cfg4.win 1).blk t).view.emb (ix2 k q)) = V c main_v10 (ix2 k ((((cfg4.win 2).blk t).view.emb (ix2 p q)) 1))
    have h1 : ((cfg4.win 1).blk t).view.emb (ix2 k q) = ix2 k ((((cfg4.win 2).blk t).view.emb (ix2 p q)) 1) := by
      funext a; apply Fin.ext
      match a with
      | ⟨0, _⟩ => show win4_1.index t (0 : Fin 2) * 32 + 1 * k.val = k.val; omega
      | ⟨1, _⟩ => show win4_1.index t (1 : Fin 2) * 32 + 1 * q.val = win4_2.index t (1 : Fin 2) * 32 + 1 * q.val; omega
    exact congrArg (V c main_v10) h1

/-- An entry of the result array is in point `t`'s block iff its row is among the block's 10000 rows. -/
theorem mem_blk (t : Fin cfg4.N) (i : S10000x32.Idx) :
    i ∈ ((cfg4.win 2).blk t).view.set ↔ ∀ a : Fin 2, win4_2.index t a * S10000x32.size a ≤ (i a).val ∧ (i a).val < win4_2.index t a * S10000x32.size a + S10000x32.size a := by
  show i ∈ ((View.whole main_v11).slice (win4_2.rect t)).set ↔ _
  rw [View.set_slice_whole, Rect.mem_set_unit]
  exact Iff.rfl

/-- Every entry is in the block of the point its row falls in. -/
theorem cover (i : S10000x32.Idx) : ∃ t : Fin cfg4.N, (cfg4.win 2).flush t = true ∧ i ∈ ((cfg4.win 2).blk t).view.set := by
  have hi0 : (i 0).val < 10000 := (i 0).isLt
  have hi1 : (i 1).val < 32 := (i 1).isLt
  have hN : cfg4.N = 1 := N_4
  refine ⟨⟨(i 0).val / 10000, by rw [hN]; omega⟩, flush4_2 _, ?_⟩
  rw [mem_blk]
  obtain ⟨e0, e1, e2, e3, e4, e5⟩ := idx ⟨(i 0).val / 10000, by rw [hN]; omega⟩
  intro a
  match a with
  | ⟨0, _⟩ =>
    show win4_2.index _ (0 : Fin 2) * 10000 ≤ (i 0).val ∧ (i 0).val < win4_2.index _ (0 : Fin 2) * 10000 + 10000
    rw [e4]; show (i 0).val / 10000 * 10000 ≤ (i 0).val ∧ (i 0).val < (i 0).val / 10000 * 10000 + 10000; omega
  | ⟨1, _⟩ =>
    show win4_2.index _ (1 : Fin 2) * 32 ≤ (i 1).val ∧ (i 1).val < win4_2.index _ (1 : Fin 2) * 32 + 32
    rw [e5]; omega

/-- The launch leaves in its result array `A ⬝ B` of the two arrays it reads. -/
theorem final (c : Dev nD) : (dat4 V c).arrAt 2 cfg4.N = mm (V c main_v6) (V c main_v10) :=
  (dat4 V c).arrAt_eq_of_cover 2 _ (fun t _ => flushed V c t) cover

end Cert.KernelIdeal.Region4

end
-- ==== Proof.Region5.lean ====
/-
  Launch 5 of the eight: the first decoder convolution `relu (adj ⬝ s)`.

  Grid point `t` of the 25 holds rows `400·t … 400·t + 399` of the left matrix and of the result, and the whole right matrix;
  the 25 row blocks tile the 10000 rows, so the result array ends holding the product of the whole arrays.
  The body is one matrix product into a zero accumulator, followed by the maximum with zero; on the extended reals its entry `(p, q)`
  is `max (∑ k, A(p, k) · B(k, q)) 0` of the two blocks it loads (changes of float format and reshapes to the same
  shape are the identity).  Reading each block where the window puts it in its array — row `400·t + p` of the left
  matrix, the right matrix unmoved — what point `t` writes back is block `t` of `relu (A ⬝ B)` of the whole
  arrays as the launch finds them, whatever those are (`V`).
-/
import proofs.«174584_g74380243632355_cont_sun_m_599_2_alg».proof.Proof.Gen.KernelIdeal.Frame
import proofs.«174584_g74380243632355_cont_sun_m_599_2_alg».proof.Proof.Spec
import proofs.«174584_g74380243632355_cont_sun_m_599_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region5

open Cert.KernelIdeal Cert.KernelIdeal.Gen Cert.Gcn Cert.Lib.MatProduct
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-- The body's result at entry `(p, q)`, from the two blocks it loads. -/
theorem pay_apply (x0 : Vec Ideal S400x10000 .bf16) (x1 : Vec Ideal S10000x32 .bf16) (p : Fin 400) (q : Fin 32) :
    k5_pay1 x0 x1 (ix2 p q) = max (∑ k : Fin 10000, x0 (ix2 p k) * x1 (ix2 k q)) 0 := by
  unfold k5_pay1
  rw [shapeCast_self, shapeCast_self]
  exact congrArg₂ max (Cert.Lib.PlainDot.matmul_plain_zero_apply (M := 400) (K := 10000) (N := 32) none x0 x1 p q) Ideal.ofBits_zero_f32

/-- The index maps over the grid: the left matrix's block and the result's move down one block of rows per
    point, the right matrix stays. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is its block of `relu (A ⬝ B)` of the arrays as the launch finds them. -/
theorem flushed (c : Dev nD) (t : Fin cfg5.N) :
    (dat5 V c).flushed 2 t = ((cfg5.win 2).blk t).view.read (Elt Ideal) (relu (mm (V c main_v2_1) (V c main_v12))) := by
  show (cfg5.win 2).cut (grid5.coords t) ((dat5 V c).after 2 t) = _
  rw [after5_2]
  unfold out5_2
  rw [View.canon_unit_zero hz]
  simp only [View.ld_unit_zero (S := S400x10000) hz, View.ld_unit_zero (S := S10000x32) hz]
  funext j
  obtain ⟨p, q, rfl⟩ : ∃ (p : Fin 400) (q : Fin 32), j = ix2 p q := ⟨j 0, j 1, eq_ix2 j⟩
  refine (pay_apply (iblk5 V c 0 t) (iblk5 V c 1 t) p q).trans ?_
  obtain ⟨e0, e1, e2, e3, e4, e5⟩ := idx t
  refine max_sum_mul_congr (fun k => iblk5 V c 0 t (ix2 p k))
    (fun k => V c main_v2_1 (ix2 ((((cfg5.win 2).blk t).view.emb (ix2 p q)) 0) k))
    (fun k => iblk5 V c 1 t (ix2 k q))
    (fun k => V c main_v12 (ix2 k ((((cfg5.win 2).blk t).view.emb (ix2 p q)) 1))) (fun k => ?_) (fun k => ?_)
  · show V c main_v2_1 (((cfg5.win 0).blk t).view.emb (ix2 p k)) = V c main_v2_1 (ix2 ((((cfg5.win 2).blk t).view.emb (ix2 p q)) 0) k)
    have h0 : ((cfg5.win 0).blk t).view.emb (ix2 p k) = ix2 ((((cfg5.win 2).blk t).view.emb (ix2 p q)) 0) k := by
      funext a; apply Fin.ext
      match a with
      | ⟨0, _⟩ => show win5_0.index t (0 : Fin 2) * 400 + 1 * p.val = win5_2.index t (0 : Fin 2) * 400 + 1 * p.val; omega
      | ⟨1, _⟩ => show win5_0.index t (1 : Fin 2) * 10000 + 1 * k.val = k.val; omega
    exact congrArg (V c main_v2_1) h0
  · show V c main_v12 (((cfg5.win 1).blk t).view.emb (ix2 k q)) = V c main_v12 (ix2 k ((((cfg5.win 2).blk t).view.emb (ix2 p q)) 1))
    have h1 : ((cfg5.win 1).blk t).view.emb (ix2 k q) = ix2 k ((((cfg5.win 2).blk t).view.emb (ix2 p q)) 1) := by
      funext a; apply Fin.ext
      match a with
      | ⟨0, _⟩ => show win5_1.index t (0 : Fin 2) * 10000 + 1 * k.val = k.val; omega
      | ⟨1, _⟩ => show win5_1.index t (1 : Fin 2) * 32 + 1 * q.val = win5_2.index t (1 : Fin 2) * 32 + 1 * q.val; omega
    exact congrArg (V c main_v12) h1

/-- An entry of the result array is in point `t`'s block iff its row is among the block's 400 rows. -/
theorem mem_blk (t : Fin cfg5.N) (i : S10000x32.Idx) :
    i ∈ ((cfg5.win 2).blk t).view.set ↔ ∀ a : Fin 2, win5_2.index t a * S400x32.size a ≤ (i a).val ∧ (i a).val < win5_2.index t a * S400x32.size a + S400x32.size a := by
  show i ∈ ((View.whole main_v13).slice (win5_2.rect t)).set ↔ _
  rw [View.set_slice_whole, Rect.mem_set_unit]
  exact Iff.rfl

/-- Every entry is in the block of the point its row falls in. -/
theorem cover (i : S10000x32.Idx) : ∃ t : Fin cfg5.N, (cfg5.win 2).flush t = true ∧ i ∈ ((cfg5.win 2).blk t).view.set := by
  have hi0 : (i 0).val < 10000 := (i 0).isLt
  have hi1 : (i 1).val < 32 := (i 1).isLt
  have hN : cfg5.N = 25 := N_5
  refine ⟨⟨(i 0).val / 400, by rw [hN]; omega⟩, flush5_2 _, ?_⟩
  rw [mem_blk]
  obtain ⟨e0, e1, e2, e3, e4, e5⟩ := idx ⟨(i 0).val / 400, by rw [hN]; omega⟩
  intro a
  match a with
  | ⟨0, _⟩ =>
    show win5_2.index _ (0 : Fin 2) * 400 ≤ (i 0).val ∧ (i 0).val < win5_2.index _ (0 : Fin 2) * 400 + 400
    rw [e4]; show (i 0).val / 400 * 400 ≤ (i 0).val ∧ (i 0).val < (i 0).val / 400 * 400 + 400; omega
  | ⟨1, _⟩ =>
    show win5_2.index _ (1 : Fin 2) * 32 ≤ (i 1).val ∧ (i 1).val < win5_2.index _ (1 : Fin 2) * 32 + 32
    rw [e5]; omega

/-- The launch leaves in its result array `relu (A ⬝ B)` of the two arrays it reads. -/
theorem final (c : Dev nD) : (dat5 V c).arrAt 2 cfg5.N = relu (mm (V c main_v2_1) (V c main_v12)) :=
  (dat5 V c).arrAt_eq_of_cover 2 _ (fun t _ => flushed V c t) cover

end Cert.KernelIdeal.Region5

end
-- ==== Proof.Region6.lean ====
/-
  Launch 6 of the eight: the product of the hidden layer of the decoder with the second decoder weight.

  The launch has no grid: its one point holds the whole of each array.
  The body is one matrix product into a zero accumulator; on the extended reals its entry `(p, q)`
  is `∑ k, A(p, k) · B(k, q)` of the two blocks it loads (changes of float format and reshapes to the same
  shape are the identity).  Reading each block where the window puts it in its array — row `10000·t + p` of the left
  matrix, the right matrix unmoved — what point `t` writes back is block `t` of `A ⬝ B` of the whole
  arrays as the launch finds them, whatever those are (`V`).
-/
import proofs.«174584_g74380243632355_cont_sun_m_599_2_alg».proof.Proof.Gen.KernelIdeal.Frame
import proofs.«174584_g74380243632355_cont_sun_m_599_2_alg».proof.Proof.Spec
import proofs.«174584_g74380243632355_cont_sun_m_599_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region6

open Cert.KernelIdeal Cert.KernelIdeal.Gen Cert.Gcn Cert.Lib.MatProduct
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-- The body's result at entry `(p, q)`, from the two blocks it loads. -/
theorem pay_apply (x0 : Vec Ideal S10000x32 .f32) (x1 : Vec Ideal S32x128 .f32) (p : Fin 10000) (q : Fin 128) :
    k6_pay1 x0 x1 (ix2 p q) = ∑ k : Fin 32, x0 (ix2 p k) * x1 (ix2 k q) := by
  unfold k6_pay1
  rw [shapeCast_self]
  exact Cert.Lib.PlainDot.matmul_plain_zero_apply (M := 10000) (K := 32) (N := 128) none x0 x1 p q

/-- The index maps over the grid: the left matrix's block and the result's move down one block of rows per
    point, the right matrix stays. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is its block of `A ⬝ B` of the arrays as the launch finds them. -/
theorem flushed (c : Dev nD) (t : Fin cfg6.N) :
    (dat6 V c).flushed 2 t = ((cfg6.win 2).blk t).view.read (Elt Ideal) (mm (V c main_v13) (V c main_arg6)) := by
  show (cfg6.win 2).cut (grid6.coords t) ((dat6 V c).after 2 t) = _
  rw [after6_2]
  unfold out6_2
  rw [View.canon_unit_zero hz]
  simp only [View.ld_unit_zero (S := S10000x32) hz, View.ld_unit_zero (S := S32x128) hz]
  funext j
  obtain ⟨p, q, rfl⟩ : ∃ (p : Fin 10000) (q : Fin 128), j = ix2 p q := ⟨j 0, j 1, eq_ix2 j⟩
  refine (pay_apply (iblk6 V c 0 t) (iblk6 V c 1 t) p q).trans ?_
  obtain ⟨e0, e1, e2, e3, e4, e5⟩ := idx t
  refine sum_mul_congr (fun k => iblk6 V c 0 t (ix2 p k))
    (fun k => V c main_v13 (ix2 ((((cfg6.win 2).blk t).view.emb (ix2 p q)) 0) k))
    (fun k => iblk6 V c 1 t (ix2 k q))
    (fun k => V c main_arg6 (ix2 k ((((cfg6.win 2).blk t).view.emb (ix2 p q)) 1))) (fun k => ?_) (fun k => ?_)
  · show V c main_v13 (((cfg6.win 0).blk t).view.emb (ix2 p k)) = V c main_v13 (ix2 ((((cfg6.win 2).blk t).view.emb (ix2 p q)) 0) k)
    have h0 : ((cfg6.win 0).blk t).view.emb (ix2 p k) = ix2 ((((cfg6.win 2).blk t).view.emb (ix2 p q)) 0) k := by
      funext a; apply Fin.ext
      match a with
      | ⟨0, _⟩ => show win6_0.index t (0 : Fin 2) * 10000 + 1 * p.val = win6_2.index t (0 : Fin 2) * 10000 + 1 * p.val; omega
      | ⟨1, _⟩ => show win6_0.index t (1 : Fin 2) * 32 + 1 * k.val = k.val; omega
    exact congrArg (V c main_v13) h0
  · show V c main_arg6 (((cfg6.win 1).blk t).view.emb (ix2 k q)) = V c main_arg6 (ix2 k ((((cfg6.win 2).blk t).view.emb (ix2 p q)) 1))
    have h1 : ((cfg6.win 1).blk t).view.emb (ix2 k q) = ix2 k ((((cfg6.win 2).blk t).view.emb (ix2 p q)) 1) := by
      funext a; apply Fin.ext
      match a with
      | ⟨0, _⟩ => show win6_1.index t (0 : Fin 2) * 32 + 1 * k.val = k.val; omega
      | ⟨1, _⟩ => show win6_1.index t (1 : Fin 2) * 128 + 1 * q.val = win6_2.index t (1 : Fin 2) * 128 + 1 * q.val; omega
    exact congrArg (V c main_arg6) h1

/-- An entry of the result array is in point `t`'s block iff its row is among the block's 10000 rows. -/
theorem mem_blk (t : Fin cfg6.N) (i : S10000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v14).slice (win6_2.rect t)).set ↔ _
  rw [View.set_slice_whole, Rect.mem_set_unit]
  exact Iff.rfl

/-- Every entry is in the block of the point its row falls in. -/
theorem cover (i : S10000x128.Idx) : ∃ t : Fin cfg6.N, (cfg6.win 2).flush t = true ∧ i ∈ ((cfg6.win 2).blk t).view.set := by
  have hi0 : (i 0).val < 10000 := (i 0).isLt
  have hi1 : (i 1).val < 128 := (i 1).isLt
  have hN : cfg6.N = 1 := N_6
  refine ⟨⟨(i 0).val / 10000, by rw [hN]; omega⟩, flush6_2 _, ?_⟩
  rw [mem_blk]
  obtain ⟨e0, e1, e2, e3, e4, e5⟩ := idx ⟨(i 0).val / 10000, by rw [hN]; omega⟩
  intro a
  match a with
  | ⟨0, _⟩ =>
    show win6_2.index _ (0 : Fin 2) * 10000 ≤ (i 0).val ∧ (i 0).val < win6_2.index _ (0 : Fin 2) * 10000 + 10000
    rw [e4]; show (i 0).val / 10000 * 10000 ≤ (i 0).val ∧ (i 0).val < (i 0).val / 10000 * 10000 + 10000; omega
  | ⟨1, _⟩ =>
    show win6_2.index _ (1 : Fin 2) * 128 ≤ (i 1).val ∧ (i 1).val < win6_2.index _ (1 : Fin 2) * 128 + 128
    rw [e5]; omega

/-- The launch leaves in its result array `A ⬝ B` of the two arrays it reads. -/
theorem final (c : Dev nD) : (dat6 V c).arrAt 2 cfg6.N = mm (V c main_v13) (V c main_arg6) :=
  (dat6 V c).arrAt_eq_of_cover 2 _ (fun t _ => flushed V c t) cover

end Cert.KernelIdeal.Region6

end
-- ==== Proof.Region7.lean ====
/-
  Launch 7 of the eight: the last graph convolution `adj ⬝ s`.

  Grid point `t` of the 25 holds rows `400·t … 400·t + 399` of the left matrix and of the result, and the whole right matrix;
  the 25 row blocks tile the 10000 rows, so the result array ends holding the product of the whole arrays.
  The body is one matrix product into a zero accumulator; on the extended reals its entry `(p, q)`
  is `∑ k, A(p, k) · B(k, q)` of the two blocks it loads (changes of float format and reshapes to the same
  shape are the identity).  Reading each block where the window puts it in its array — row `400·t + p` of the left
  matrix, the right matrix unmoved — what point `t` writes back is block `t` of `A ⬝ B` of the whole
  arrays as the launch finds them, whatever those are (`V`).
-/
import proofs.«174584_g74380243632355_cont_sun_m_599_2_alg».proof.Proof.Gen.KernelIdeal.Frame
import proofs.«174584_g74380243632355_cont_sun_m_599_2_alg».proof.Proof.Spec
import proofs.«174584_g74380243632355_cont_sun_m_599_2_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region7

open Cert.KernelIdeal Cert.KernelIdeal.Gen Cert.Gcn Cert.Lib.MatProduct
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-- The body's result at entry `(p, q)`, from the two blocks it loads. -/
theorem pay_apply (x0 : Vec Ideal S400x10000 .bf16) (x1 : Vec Ideal S10000x128 .bf16) (p : Fin 400) (q : Fin 128) :
    k7_pay1 x0 x1 (ix2 p q) = ∑ k : Fin 10000, x0 (ix2 p k) * x1 (ix2 k q) := by
  unfold k7_pay1
  rw [shapeCast_self, shapeCast_self]
  exact Cert.Lib.PlainDot.matmul_plain_zero_apply (M := 400) (K := 10000) (N := 128) none x0 x1 p q

/-- The index maps over the grid: the left matrix's block and the result's move down one block of rows per
    point, the right matrix stays. -/
theorem idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point `t` writes back is its block of `A ⬝ B` of the arrays as the launch finds them. -/
theorem flushed (c : Dev nD) (t : Fin cfg7.N) :
    (dat7 V c).flushed 2 t = ((cfg7.win 2).blk t).view.read (Elt Ideal) (mm (V c main_v2_1) (V c main_v15)) := by
  show (cfg7.win 2).cut (grid7.coords t) ((dat7 V c).after 2 t) = _
  rw [after7_2]
  unfold out7_2
  rw [View.canon_unit_zero hz]
  simp only [View.ld_unit_zero (S := S400x10000) hz, View.ld_unit_zero (S := S10000x128) hz]
  funext j
  obtain ⟨p, q, rfl⟩ : ∃ (p : Fin 400) (q : Fin 128), j = ix2 p q := ⟨j 0, j 1, eq_ix2 j⟩
  refine (pay_apply (iblk7 V c 0 t) (iblk7 V c 1 t) p q).trans ?_
  obtain ⟨e0, e1, e2, e3, e4, e5⟩ := idx t
  refine sum_mul_congr (fun k => iblk7 V c 0 t (ix2 p k))
    (fun k => V c main_v2_1 (ix2 ((((cfg7.win 2).blk t).view.emb (ix2 p q)) 0) k))
    (fun k => iblk7 V c 1 t (ix2 k q))
    (fun k => V c main_v15 (ix2 k ((((cfg7.win 2).blk t).view.emb (ix2 p q)) 1))) (fun k => ?_) (fun k => ?_)
  · show V c main_v2_1 (((cfg7.win 0).blk t).view.emb (ix2 p k)) = V c main_v2_1 (ix2 ((((cfg7.win 2).blk t).view.emb (ix2 p q)) 0) k)
    have h0 : ((cfg7.win 0).blk t).view.emb (ix2 p k) = ix2 ((((cfg7.win 2).blk t).view.emb (ix2 p q)) 0) k := by
      funext a; apply Fin.ext
      match a with
      | ⟨0, _⟩ => show win7_0.index t (0 : Fin 2) * 400 + 1 * p.val = win7_2.index t (0 : Fin 2) * 400 + 1 * p.val; omega
      | ⟨1, _⟩ => show win7_0.index t (1 : Fin 2) * 10000 + 1 * k.val = k.val; omega
    exact congrArg (V c main_v2_1) h0
  · show V c main_v15 (((cfg7.win 1).blk t).view.emb (ix2 k q)) = V c main_v15 (ix2 k ((((cfg7.win 2).blk t).view.emb (ix2 p q)) 1))
    have h1 : ((cfg7.win 1).blk t).view.emb (ix2 k q) = ix2 k ((((cfg7.win 2).blk t).view.emb (ix2 p q)) 1) := by
      funext a; apply Fin.ext
      match a with
      | ⟨0, _⟩ => show win7_1.index t (0 : Fin 2) * 10000 + 1 * k.val = k.val; omega
      | ⟨1, _⟩ => show win7_1.index t (1 : Fin 2) * 128 + 1 * q.val = win7_2.index t (1 : Fin 2) * 128 + 1 * q.val; omega
    exact congrArg (V c main_v15) h1

/-- An entry of the result array is in point `t`'s block iff its row is among the block's 400 rows. -/
theorem mem_blk (t : Fin cfg7.N) (i : S10000x128.Idx) :
    i ∈ ((cfg7.win 2).blk t).view.set ↔ ∀ a : Fin 2, win7_2.index t a * S400x128.size a ≤ (i a).val ∧ (i a).val < win7_2.index t a * S400x128.size a + S400x128.size a := by
  show i ∈ ((View.whole main_v16).slice (win7_2.rect t)).set ↔ _
  rw [View.set_slice_whole, Rect.mem_set_unit]
  exact Iff.rfl

/-- Every entry is in the block of the point its row falls in. -/
theorem cover (i : S10000x128.Idx) : ∃ t : Fin cfg7.N, (cfg7.win 2).flush t = true ∧ i ∈ ((cfg7.win 2).blk t).view.set := by
  have hi0 : (i 0).val < 10000 := (i 0).isLt
  have hi1 : (i 1).val < 128 := (i 1).isLt
  have hN : cfg7.N = 25 := N_7
  refine ⟨⟨(i 0).val / 400, by rw [hN]; omega⟩, flush7_2 _, ?_⟩
  rw [mem_blk]
  obtain ⟨e0, e1, e2, e3, e4, e5⟩ := idx ⟨(i 0).val / 400, by rw [hN]; omega⟩
  intro a
  match a with
  | ⟨0, _⟩ =>
    show win7_2.index _ (0 : Fin 2) * 400 ≤ (i 0).val ∧ (i 0).val < win7_2.index _ (0 : Fin 2) * 400 + 400
    rw [e4]; show (i 0).val / 400 * 400 ≤ (i 0).val ∧ (i 0).val < (i 0).val / 400 * 400 + 400; omega
  | ⟨1, _⟩ =>
    show win7_2.index _ (1 : Fin 2) * 128 ≤ (i 1).val ∧ (i 1).val < win7_2.index _ (1 : Fin 2) * 128 + 128
    rw [e5]; omega

/-- The launch leaves in its result array `A ⬝ B` of the two arrays it reads. -/
theorem final (c : Dev nD) : (dat7 V c).arrAt 2 cfg7.N = mm (V c main_v2_1) (V c main_v15) :=
  (dat7 V c).arrAt_eq_of_cover 2 _ (fun t _ => flushed V c t) cover

end Cert.KernelIdeal.Region7

end
-- ==== Proof.Chain.lean ====
/-
  What the program's buffers hold from one launch to the next.

  The frame proof names the contents of every buffer at each of the fifteen segment boundaries (`W0`, …,
  `W14`): a launch replaces its result arrays by what its grid points wrote back and leaves every other buffer
  alone, a host operation writes its one result.  Followed forwards from the launch memory this gives, with
  `adj`, `x`, `W1`, … the argument arrays and `A ⬝ B` the matrix product of `Spec.lean`:

    s1  = x ⬝ W1                       h1 = relu (adj ⬝ s1)       (and a copy of `adj`, read by later launches)
    s23 = h1 ⬝ [W2 | W3]               ml = adj ⬝ s23             (mu = left 16 columns, logvar = right 16)
    s4  = ml ⬝ [Wd1 ; 0]               zd = relu (adj ⬝ s4)
    s5  = zd ⬝ Wd2                     pred = adj ⬝ s5

  Every step is one launch's value (`Region<k>.final`, at the contents the launch is entered with) with its two
  input arrays traced back: an argument through boundaries that never write it, the adjacency copy through the
  launches that only read it, an intermediate through the one change of float format between the launch that
  wrote it and the launch that reads it (the identity on the extended reals).
-/
import proofs.«174584_g74380243632355_cont_sun_m_599_2_alg».proof.Proof.Region0
import proofs.«174584_g74380243632355_cont_sun_m_599_2_alg».proof.Proof.Region1
import proofs.«174584_g74380243632355_cont_sun_m_599_2_alg».proof.Proof.Region2
import proofs.«174584_g74380243632355_cont_sun_m_599_2_alg».proof.Proof.Region3
import proofs.«174584_g74380243632355_cont_sun_m_599_2_alg».proof.Proof.Region4
import proofs.«174584_g74380243632355_cont_sun_m_599_2_alg».proof.Proof.Region5
import proofs.«174584_g74380243632355_cont_sun_m_599_2_alg».proof.Proof.Region6
import proofs.«174584_g74380243632355_cont_sun_m_599_2_alg».proof.Proof.Region7
import Idealize.ShloMosaic.Lib.StableHlo.Run

set_option maxRecDepth 16384

noncomputable section

open scoped BigOperators

namespace Cert.KernelIdeal.Chain

open Cert.KernelIdeal Cert.KernelIdeal.Gen Cert.Gcn Cert.Lib.MatProduct
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- A buffer that no operation of a host stretch writes holds after it what it held before. -/
macro "host_skip " b:term : tactic =>
  `(tactic| exact StableHlo.after_of_forall_not_mem (b := Proc.devRef .tc $b) _ _ (List.forall_iff_forall_mem.mp (by
      simp only [hostOps1, hostOps2, hostOps3, hostOps4, hostOps5, hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The arguments as launched -/

abbrev aX : Mat 10000 128 := m ((c : Thread nD τ).loc main_arg0)
abbrev aAdj : Mat 10000 10000 := m ((c : Thread nD τ).loc main_arg1)
abbrev aW1 : Mat 128 32 := m ((c : Thread nD τ).loc main_arg2)
abbrev aW2 : Mat 32 16 := m ((c : Thread nD τ).loc main_arg3)
abbrev aW3 : Mat 32 16 := m ((c : Thread nD τ).loc main_arg4)
abbrev aWd1 : Mat 16 32 := m ((c : Thread nD τ).loc main_arg5)
abbrev aWd2 : Mat 32 128 := m ((c : Thread nD τ).loc main_arg6)

/-- The two encoder weights side by side. -/
def kW23 : Mat 32 32 :=
  concatenate S32x32 1 [⟨S32x16, aW2 m c⟩, ⟨S32x16, aW3 m c⟩] concatenates_S32x16_S32x16_S32x32_d1

/-- The first decoder weight stacked on a block of zeros. -/
def kWd1p : Mat 32 32 :=
  concatenate S32x32 0 [⟨S16x32, aWd1 m c⟩, ⟨S16x32, broadcastInDim S16x32 ![] bcast_S_S16x32 (constant (F := Ideal) S_ .f32 0x00000000#32)⟩] concatenates_S16x32_S16x32_S32x32_d0

/-! ## Launch 0 and the hidden layer -/

theorem s1 : W1 m ρ c (Proc.devRef .tc main_v0) = mm (aX m c) (aW1 m c) :=
  (W1_arr m ρ c 2).trans (Region0.final (V0 m ρ) c)

theorem arg1_at2 : W2 m ρ c (Proc.devRef .tc main_arg1) = aAdj m c :=
  (show W2 m ρ c (Proc.devRef .tc main_arg1) = W1 m ρ c (Proc.devRef .tc main_arg1) by host_skip main_arg1).trans
    ((W1_of_ne m ρ c main_arg1 (by decide)).trans rfl)

theorem v1_at2 : W2 m ρ c (Proc.devRef .tc main_v1) = mm (aX m c) (aW1 m c) := by
  refine Eq.trans ?_ (s1 m ρ c)
  show StableHlo.after hostOps1 (W1 m ρ c) (Proc.devRef .tc main_v1) = _
  after_results
  rfl

/-- The hidden layer. -/
theorem h1 : W3 m ρ c (Proc.devRef .tc main_v2_0) = hidden (aX m c) (aAdj m c) (aW1 m c) :=
  (W3_arr m ρ c 2).trans ((Region1.final (V2 m ρ) c).trans
    (congrArg relu (congrArg₂ mm (arg1_at2 m ρ c) (v1_at2 m ρ c))))

/-- The copy of the adjacency matrix is the adjacency matrix. -/
theorem adj_at3 : W3 m ρ c (Proc.devRef .tc main_v2_1) = aAdj m c :=
  (W3_arr m ρ c 3).trans ((Region1.final_copy (V2 m ρ) c).trans (arg1_at2 m ρ c))

/-! ## Launches 2 and 3: the two heads at once -/

theorem arg3_at3 : W3 m ρ c (Proc.devRef .tc main_arg3) = aW2 m c :=
  (W3_of_ne m ρ c main_arg3 (by decide)).trans
    ((show W2 m ρ c (Proc.devRef .tc main_arg3) = W1 m ρ c (Proc.devRef .tc main_arg3) by host_skip main_arg3).trans
      ((W1_of_ne m ρ c main_arg3 (by decide)).trans rfl))

theorem arg4_at3 : W3 m ρ c (Proc.devRef .tc main_arg4) = aW3 m c :=
  (W3_of_ne m ρ c main_arg4 (by decide)).trans
    ((show W2 m ρ c (Proc.devRef .tc main_arg4) = W1 m ρ c (Proc.devRef .tc main_arg4) by host_skip main_arg4).trans
      ((W1_of_ne m ρ c main_arg4 (by decide)).trans rfl))

theorem v2_0_at4 : W4 m ρ c (Proc.devRef .tc main_v2_0) = hidden (aX m c) (aAdj m c) (aW1 m c) :=
  (show W4 m ρ c (Proc.devRef .tc main_v2_0) = W3 m ρ c (Proc.devRef .tc main_v2_0) by host_skip main_v2_0).trans (h1 m ρ c)

theorem v3_at4 : W4 m ρ c (Proc.devRef .tc main_v3) = kW23 m c := by
  show StableHlo.after hostOps2 (W3 m ρ c) (Proc.devRef .tc main_v3) = _
  after_results
  rw [arg3_at3 m ρ c, arg4_at3 m ρ c]
  rfl

theorem s23 : W5 m ρ c (Proc.devRef .tc main_v4) = mm (hidden (aX m c) (aAdj m c) (aW1 m c)) (kW23 m c) :=
  (W5_arr m ρ c 2).trans ((Region2.final (V4 m ρ) c).trans (congrArg₂ mm (v2_0_at4 m ρ c) (v3_at4 m ρ c)))

theorem adj_at6 : W6 m ρ c (Proc.devRef .tc main_v2_1) = aAdj m c :=
  (show W6 m ρ c (Proc.devRef .tc main_v2_1) = W5 m ρ c (Proc.devRef .tc main_v2_1) by host_skip main_v2_1).trans
    ((W5_of_ne m ρ c main_v2_1 (by decide)).trans
      ((show W4 m ρ c (Proc.devRef .tc main_v2_1) = W3 m ρ c (Proc.devRef .tc main_v2_1) by host_skip main_v2_1).trans (adj_at3 m ρ c)))

theorem v5_at6 : W6 m ρ c (Proc.devRef .tc main_v5) = mm (hidden (aX m c) (aAdj m c) (aW1 m c)) (kW23 m c) := by
  refine Eq.trans ?_ (s23 m ρ c)
  show StableHlo.after hostOps3 (W5 m ρ c) (Proc.devRef .tc main_v5) = _
  after_results
  rfl

/-- Both heads, side by side. -/
def kMl : Mat 10000 32 := mm (aAdj m c) (mm (hidden (aX m c) (aAdj m c) (aW1 m c)) (kW23 m c))

theorem ml : W7 m ρ c (Proc.devRef .tc main_v6) = kMl m c :=
  (W7_arr m ρ c 2).trans ((Region3.final (V6 m ρ) c).trans (congrArg₂ mm (adj_at6 m ρ c) (v5_at6 m ρ c)))

theorem adj_at7 : W7 m ρ c (Proc.devRef .tc main_v2_1) = aAdj m c :=
  (W7_arr m ρ c 0).trans (((dat3 (V6 m ρ) c).arrAt_in 0 rfl _).trans ((A_eq3 (V6 m ρ) c 0).trans (adj_at6 m ρ c)))

/-! ## Launches 4 and 5: the decoder's hidden layer -/

theorem arg5_at7 : W7 m ρ c (Proc.devRef .tc main_arg5) = aWd1 m c :=
  (W7_of_ne m ρ c main_arg5 (by decide)).trans
    ((show W6 m ρ c (Proc.devRef .tc main_arg5) = W5 m ρ c (Proc.devRef .tc main_arg5) by host_skip main_arg5).trans
      ((W5_of_ne m ρ c main_arg5 (by decide)).trans
        ((show W4 m ρ c (Proc.devRef .tc main_arg5) = W3 m ρ c (Proc.devRef .tc main_arg5) by host_skip main_arg5).trans
          ((W3_of_ne m ρ c main_arg5 (by decide)).trans
            ((show W2 m ρ c (Proc.devRef .tc main_arg5) = W1 m ρ c (Proc.devRef .tc main_arg5) by host_skip main_arg5).trans
              ((W1_of_ne m ρ c main_arg5 (by decide)).trans rfl))))))

theorem v6_at8 : W8 m ρ c (Proc.devRef .tc main_v6) = kMl m c :=
  (show W8 m ρ c (Proc.devRef .tc main_v6) = W7 m ρ c (Proc.devRef .tc main_v6) by host_skip main_v6).trans (ml m ρ c)

theorem v10_at8 : W8 m ρ c (Proc.devRef .tc main_v10) = kWd1p m c := by
  show StableHlo.after hostOps4 (W7 m ρ c) (Proc.devRef .tc main_v10) = _
  after_results
  rw [arg5_at7 m ρ c]
  rfl

theorem s4 : W9 m ρ c (Proc.devRef .tc main_v11) = mm (kMl m c) (kWd1p m c) :=
  (W9_arr m ρ c 2).trans ((Region4.final (V8 m ρ) c).trans (congrArg₂ mm (v6_at8 m ρ c) (v10_at8 m ρ c)))

theorem adj_at10 : W10 m ρ c (Proc.devRef .tc main_v2_1) = aAdj m c :=
  (show W10 m ρ c (Proc.devRef .tc main_v2_1) = W9 m ρ c (Proc.devRef .tc main_v2_1) by host_skip main_v2_1).trans
    ((W9_of_ne m ρ c main_v2_1 (by decide)).trans
      ((show W8 m ρ c (Proc.devRef .tc main_v2_1) = W7 m ρ c (Proc.devRef .tc main_v2_1) by host_skip main_v2_1).trans (adj_at7 m ρ c)))

theorem v12_at10 : W10 m ρ c (Proc.devRef .tc main_v12) = mm (kMl m c) (kWd1p m c) := by
  refine Eq.trans ?_ (s4 m ρ c)
  show StableHlo.after hostOps5 (W9 m ρ c) (Proc.devRef .tc main_v12) = _
  after_results
  rfl

/-- The decoder's hidden layer. -/
def kZd : Mat 10000 32 := relu (mm (aAdj m c) (mm (kMl m c) (kWd1p m c)))

theorem zd : W11 m ρ c (Proc.devRef .tc main_v13) = kZd m c :=
  (W11_arr m ρ c 2).trans ((Region5.final (V10 m ρ) c).trans
    (congrArg relu (congrArg₂ mm (adj_at10 m ρ c) (v12_at10 m ρ c))))

theorem adj_at11 : W11 m ρ c (Proc.devRef .tc main_v2_1) = aAdj m c :=
  (W11_arr m ρ c 0).trans (((dat5 (V10 m ρ) c).arrAt_in 0 rfl _).trans ((A_eq5 (V10 m ρ) c 0).trans (adj_at10 m ρ c)))

/-! ## Launches 6 and 7: the reconstruction -/

theorem arg6_at11 : W11 m ρ c (Proc.devRef .tc main_arg6) = aWd2 m c :=
  (W11_of_ne m ρ c main_arg6 (by decide)).trans
    ((show W10 m ρ c (Proc.devRef .tc main_arg6) = W9 m ρ c (Proc.devRef .tc main_arg6) by host_skip main_arg6).trans
      ((W9_of_ne m ρ c main_arg6 (by decide)).trans
        ((show W8 m ρ c (Proc.devRef .tc main_arg6) = W7 m ρ c (Proc.devRef .tc main_arg6) by host_skip main_arg6).trans
          ((W7_of_ne m ρ c main_arg6 (by decide)).trans
            ((show W6 m ρ c (Proc.devRef .tc main_arg6) = W5 m ρ c (Proc.devRef .tc main_arg6) by host_skip main_arg6).trans
              ((W5_of_ne m ρ c main_arg6 (by decide)).trans
                ((show W4 m ρ c (Proc.devRef .tc main_arg6) = W3 m ρ c (Proc.devRef .tc main_arg6) by host_skip main_arg6).trans
                  ((W3_of_ne m ρ c main_arg6 (by decide)).trans
                    ((show W2 m ρ c (Proc.devRef .tc main_arg6) = W1 m ρ c (Proc.devRef .tc main_arg6) by host_skip main_arg6).trans
                      ((W1_of_ne m ρ c main_arg6 (by decide)).trans rfl))))))))))

theorem s5 : W12 m ρ c (Proc.devRef .tc main_v14) = mm (kZd m c) (aWd2 m c) :=
  (W12_arr m ρ c 2).trans ((Region6.final (V11 m ρ) c).trans (congrArg₂ mm (zd m ρ c) (arg6_at11 m ρ c)))

theorem adj_at13 : W13 m ρ c (Proc.devRef .tc main_v2_1) = aAdj m c :=
  (show W13 m ρ c (Proc.devRef .tc main_v2_1) = W12 m ρ c (Proc.devRef .tc main_v2_1) by host_skip main_v2_1).trans
    ((W12_of_ne m ρ c main_v2_1 (by decide)).trans (adj_at11 m ρ c))

theorem v15_at13 : W13 m ρ c (Proc.devRef .tc main_v15) = mm (kZd m c) (aWd2 m c) := by
  refine Eq.trans ?_ (s5 m ρ c)
  show StableHlo.after hostOps7 (W12 m ρ c) (Proc.devRef .tc main_v15) = _
  after_results
  rfl

/-- The first result: the reconstruction. -/
theorem pred : W14 m ρ c (Proc.devRef .tc main_v16) = mm (aAdj m c) (mm (kZd m c) (aWd2 m c)) :=
  (W14_arr m ρ c 2).trans ((Region7.final (V13 m ρ) c).trans (congrArg₂ mm (adj_at13 m ρ c) (v15_at13 m ρ c)))

/-! ## The two slices of the heads: the second and third results -/

theorem v7_at8 : W8 m ρ c (Proc.devRef .tc main_v7) = extractStridedSlice S10000x16 ![0, 0] (kMl m c) slices_S10000x32_S10000x16_0_0 := by
  show StableHlo.after hostOps4 (W7 m ρ c) (Proc.devRef .tc main_v7) = _
  after_results
  rw [ml m ρ c]

theorem v8_at8 : W8 m ρ c (Proc.devRef .tc main_v8) = extractStridedSlice S10000x16 ![0, 16] (kMl m c) slices_S10000x32_S10000x16_0_16 := by
  show StableHlo.after hostOps4 (W7 m ρ c) (Proc.devRef .tc main_v8) = _
  after_results
  rw [ml m ρ c]

/-- The second result: the left sixteen columns of both heads. -/
theorem mu : W14 m ρ c (Proc.devRef .tc main_v7) = extractStridedSlice S10000x16 ![0, 0] (kMl m c) slices_S10000x32_S10000x16_0_0 :=
  (W14_of_ne m ρ c main_v7 (by decide)).trans
    ((show W13 m ρ c (Proc.devRef .tc main_v7) = W12 m ρ c (Proc.devRef .tc main_v7) by host_skip main_v7).trans
      ((W12_of_ne m ρ c main_v7 (by decide)).trans
        ((W11_of_ne m ρ c main_v7 (by decide)).trans
          ((show W10 m ρ c (Proc.devRef .tc main_v7) = W9 m ρ c (Proc.devRef .tc main_v7) by host_skip main_v7).trans
            ((W9_of_ne m ρ c main_v7 (by decide)).trans (v7_at8 m ρ c))))))

/-- The third result: the right sixteen columns. -/
theorem logvar : W14 m ρ c (Proc.devRef .tc main_v8) = extractStridedSlice S10000x16 ![0, 16] (kMl m c) slices_S10000x32_S10000x16_0_16 :=
  (W14_of_ne m ρ c main_v8 (by decide)).trans
    ((show W13 m ρ c (Proc.devRef .tc main_v8) = W12 m ρ c (Proc.devRef .tc main_v8) by host_skip main_v8).trans
      ((W12_of_ne m ρ c main_v8 (by decide)).trans
        ((W11_of_ne m ρ c main_v8 (by decide)).trans
          ((show W10 m ρ c (Proc.devRef .tc main_v8) = W9 m ρ c (Proc.devRef .tc main_v8) by host_skip main_v8).trans
            ((W9_of_ne m ρ c main_v8 (by decide)).trans (v8_at8 m ρ c))))))

end Cert.KernelIdeal.Chain

end
-- ==== Proof.Bridge.lean ====
/-
  The kernel's three results are the model's.

  The kernel runs both encoder heads as ONE product with the two weights side by side, `ml = adj ⬝ (h1 ⬝ [W2 | W3])`,
  and returns the left and right halves of its columns.  An entry of a product depends on one column of the
  right factor, so column `j < 16` of `ml` is column `j` of `adj ⬝ (h1 ⬝ W2)` and column `16 + j` is column `j` of
  `adj ⬝ (h1 ⬝ W3)` (`MatProduct.mm_cols_left`, `mm_cols_right`, each used twice: for the inner and for the outer product).
  The decoder then multiplies ALL 32 columns of `ml` by `Wd1` stacked on sixteen rows of zeros: the sixteen
  extra terms of every sum are products with zero and vanish (`MatProduct.mm_pad_zero`), leaving `mu ⬝ Wd1`.
-/
import proofs.«174584_g74380243632355_cont_sun_m_599_2_alg».proof.Proof.Chain

set_option maxRecDepth 16384

noncomputable section

open scoped BigOperators

namespace Cert.KernelIdeal.Bridge

open Cert.KernelIdeal Cert.KernelIdeal.Gen Cert.KernelIdeal.Chain Cert.Gcn Cert.Lib.MatProduct
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The hidden layer of the arguments. -/
abbrev H : Mat 10000 32 := hidden (aX m c) (aAdj m c) (aW1 m c)

/-! ## The concatenated weights and the slices, read at an entry -/

theorem kW23_left (l : Fin 32) (j : Fin 16) : kW23 m c (ix2 l (Fin.castAdd 16 j)) = aW2 m c (ix2 l j) := by
  unfold kW23
  exact concatenate_pair_apply_left (t := S32x32) (s₁ := S32x16) (s₂ := S32x16) 1 (aW2 m c) (aW3 m c)
    concatenates_S32x16_S32x16_S32x32_d1 (ix2 l (Fin.castAdd 16 j)) rfl (ix2 l j)
    (fun b => by match b with | ⟨0, _⟩ => rfl | ⟨1, _⟩ => rfl)

theorem kW23_right (l : Fin 32) (j : Fin 16) : kW23 m c (ix2 l (Fin.natAdd 16 j)) = aW3 m c (ix2 l j) := by
  unfold kW23
  exact concatenate_pair_apply_right (t := S32x32) (s₁ := S32x16) (s₂ := S32x16) 1 (aW2 m c) (aW3 m c)
    concatenates_S32x16_S32x16_S32x32_d1 (ix2 l (Fin.natAdd 16 j)) rfl rfl (ix2 l j)
    (fun b hb => by match b, hb with | ⟨0, _⟩, _ => rfl | ⟨1, _⟩, hb => exact absurd rfl hb)
    (by show j.val + 16 = 16 + j.val; omega)

theorem kWd1p_top (k : Fin 16) (q : Fin 32) : kWd1p m c (ix2 (Fin.castAdd 16 k) q) = aWd1 m c (ix2 k q) := by
  unfold kWd1p
  exact concatenate_pair_apply_left (t := S32x32) (s₁ := S16x32) (s₂ := S16x32) 0 (aWd1 m c) _
    concatenates_S16x32_S16x32_S32x32_d0 (ix2 (Fin.castAdd 16 k) q) rfl (ix2 k q)
    (fun b => by match b with | ⟨0, _⟩ => rfl | ⟨1, _⟩ => rfl)

theorem kWd1p_bot (k : Fin 16) (q : Fin 32) : kWd1p m c (ix2 (Fin.natAdd 16 k) q) = 0 := by
  unfold kWd1p
  refine (concatenate_pair_apply_right (t := S32x32) (s₁ := S16x32) (s₂ := S16x32) 0 (aWd1 m c) _
    concatenates_S16x32_S16x32_S32x32_d0 (ix2 (Fin.natAdd 16 k) q) rfl rfl (ix2 k q)
    (fun b hb => by match b, hb with | ⟨0, _⟩, hb => exact absurd rfl hb | ⟨1, _⟩, _ => rfl)
    (by show k.val + 16 = 16 + k.val; omega)).trans ?_
  refine (broadcastInDim_apply _ bcast_S_S16x32 (constant (F := Ideal) S_ .f32 0x00000000#32) (ix2 k q) ix0 (fun a => a.elim0)).trans ?_
  exact Ideal.ofBits_zero_f32

theorem sliceL_apply (A : Mat 10000 32) (p : Fin 10000) (j : Fin 16) :
    extractStridedSlice S10000x16 ![0, 0] A slices_S10000x32_S10000x16_0_0 (ix2 p j) = A (ix2 p (Fin.castAdd 16 j)) :=
  extractStridedSlice_apply ![0, 0] A slices_S10000x32_S10000x16_0_0 (ix2 p j) (ix2 p (Fin.castAdd 16 j))
    (fun a => by match a with | ⟨0, _⟩ => (show p.val = 0 + p.val; omega) | ⟨1, _⟩ => (show j.val = 0 + j.val; omega))

theorem sliceR_apply (A : Mat 10000 32) (p : Fin 10000) (j : Fin 16) :
    extractStridedSlice S10000x16 ![0, 16] A slices_S10000x32_S10000x16_0_16 (ix2 p j) = A (ix2 p (Fin.natAdd 16 j)) :=
  extractStridedSlice_apply ![0, 16] A slices_S10000x32_S10000x16_0_16 (ix2 p j) (ix2 p (Fin.natAdd 16 j))
    (fun a => by match a with | ⟨0, _⟩ => (show p.val = 0 + p.val; omega) | ⟨1, _⟩ => (show 16 + j.val = 16 + j.val; rfl))

/-! ## The two heads out of the one product -/

theorem ml_left (p : Fin 10000) (j : Fin 16) :
    kMl m c (ix2 p (Fin.castAdd 16 j)) = head (H m c) (aAdj m c) (aW2 m c) (ix2 p j) :=
  mm_cols_left (N₁ := 16) (N₂ := 16) (aAdj m c) (mm (H m c) (kW23 m c)) (mm (H m c) (aW2 m c))
    (fun k q => mm_cols_left (N₁ := 16) (N₂ := 16) (H m c) (kW23 m c) (aW2 m c) (kW23_left m c) k q) p j

theorem ml_right (p : Fin 10000) (j : Fin 16) :
    kMl m c (ix2 p (Fin.natAdd 16 j)) = head (H m c) (aAdj m c) (aW3 m c) (ix2 p j) :=
  mm_cols_right (N₁ := 16) (N₂ := 16) (aAdj m c) (mm (H m c) (kW23 m c)) (mm (H m c) (aW3 m c))
    (fun k q => mm_cols_right (N₁ := 16) (N₂ := 16) (H m c) (kW23 m c) (aW3 m c) (kW23_right m c) k q) p j

/-- The second result is the mean head. -/
theorem mu_eq : W14 m ρ c (Proc.devRef .tc main_v7) = head (H m c) (aAdj m c) (aW2 m c) :=
  (Chain.mu m ρ c).trans (ext2 fun p j => (sliceL_apply (kMl m c) p j).trans (ml_left m c p j))

/-- The third result is the log-variance head. -/
theorem logvar_eq : W14 m ρ c (Proc.devRef .tc main_v8) = head (H m c) (aAdj m c) (aW3 m c) :=
  (Chain.logvar m ρ c).trans (ext2 fun p j => (sliceR_apply (kMl m c) p j).trans (ml_right m c p j))

/-! ## The decoder: the zero rows drop the log-variance columns -/

theorem s4_eq : mm (kMl m c) (kWd1p m c) = mm (head (H m c) (aAdj m c) (aW2 m c)) (aWd1 m c) :=
  mm_pad_zero (K₁ := 16) (K₂ := 16) (kMl m c) (kWd1p m c) (head (H m c) (aAdj m c) (aW2 m c)) (aWd1 m c)
    (ml_left m c) (kWd1p_top m c) (kWd1p_bot m c)

/-- The first result is the reconstruction decoded from the mean. -/
theorem pred_eq : W14 m ρ c (Proc.devRef .tc main_v16)
    = decode (head (H m c) (aAdj m c) (aW2 m c)) (aAdj m c) (aWd1 m c) (aWd2 m c) := by
  refine (Chain.pred m ρ c).trans ?_
  unfold kZd decode
  rw [s4_eq]

end Cert.KernelIdeal.Bridge

end
-- ==== Proof.RefSpec.lean ====
/-
  The reference program computes the model of `Spec.lean`.

  The reference is sixteen host operations: ten matrix products and two maxima with a broadcast zero.  On the
  extended reals a host matrix product of an `M × K` by a `K × N` matrix is the sum `∑ k, A(p, k) · B(k, c)` at
  every entry (`hostDot_eq_mm`), and the maximum with the broadcast of the zero word is `relu`
  (`max_zero_eq_relu`).  Rewriting the operations one after the other, from the arguments to the results,
  turns the three results into `decode (head h adj W2) adj Wd1 Wd2`, `head h adj W2` and `head h adj W3`
  with `h = hidden x adj W1`.
-/
import proofs.«174584_g74380243632355_cont_sun_m_599_2_alg».proof.Proof.Gen.ReferenceIdeal.Read
import proofs.«174584_g74380243632355_cont_sun_m_599_2_alg».proof.Proof.Spec
import proofs.«174584_g74380243632355_cont_sun_m_599_2_alg».proof.Proof.LibPlainDot

noncomputable section

open scoped BigOperators

namespace Cert.ReferenceIdeal.RefSpec

open Cert.ReferenceIdeal Cert.ReferenceIdeal.Gen Cert.ReferenceIdeal.Read Cert.Gcn Cert.Lib.MatProduct
open Idealize.ShloMosaic Idealize.ShloMosaic.ValueIdx

/-- On the extended reals the host's product of an `M × K` by a `K × N` matrix is `A ⬝ B`. -/
theorem hostDot_eq_mm {M K N : Nat} (A : Mat M K) (B : Mat K N) :
    Host.dotGeneral (F := Ideal) (φ₁ := .f32) (φ₂ := .f32) (DotDims.plain M K N) none A B = mm A B :=
  ext2 fun p c => Cert.Lib.PlainDot.dotGeneral_plain_apply (φ₁ := .f32) (φ₂ := .f32) none .single A B p c

/-- The maximum with the broadcast zero is `relu`. -/
theorem max_zero_eq_relu (A : Mat 10000 32) :
    maximumf (F := Ideal) (φ := .f32) A (broadcastInDim S10000x32 ![] bcast_S_S10000x32 (constant (F := Ideal) S_ .f32 0x00000000#32)) = relu A := by
  funext i
  show max (A i) (val_main_call0_v0 (F := Ideal) i) = max (A i) 0
  rw [val_main_call0_v0_apply, val_main_call0_cst_apply]
  exact congrArg (max (A i)) Ideal.ofBits_zero_f32

variable (x : Mat 10000 128) (adj : Mat 10000 10000) (W1 : Mat 128 32) (W2 W3 : Mat 32 16) (Wd1 : Mat 16 32) (Wd2 : Mat 32 128)

/-- The hidden layer the reference computes. -/
theorem hidden_eq : val_main_v2 (F := Ideal) x adj W1 = hidden x adj W1 := by
  show maximumf (F := Ideal) (φ := .f32) (Host.dotGeneral (F := Ideal) (φ₁ := .f32) (φ₂ := .f32) (DotDims.plain 10000 10000 32) none adj
      (Host.dotGeneral (F := Ideal) (φ₁ := .f32) (φ₂ := .f32) (DotDims.plain 10000 128 32) none x W1))
    (broadcastInDim S10000x32 ![] bcast_S_S10000x32 (constant (F := Ideal) S_ .f32 0x00000000#32)) = _
  rw [hostDot_eq_mm, hostDot_eq_mm, max_zero_eq_relu]
  rfl

/-- The mean head. -/
theorem mu_eq : val_main_v4 (F := Ideal) x adj W1 W2 = head (hidden x adj W1) adj W2 := by
  show Host.dotGeneral (F := Ideal) (φ₁ := .f32) (φ₂ := .f32) (DotDims.plain 10000 10000 16) none adj
      (Host.dotGeneral (F := Ideal) (φ₁ := .f32) (φ₂ := .f32) (DotDims.plain 10000 32 16) none (val_main_v2 (F := Ideal) x adj W1) W2) = _
  rw [hostDot_eq_mm, hostDot_eq_mm, hidden_eq]
  rfl

/-- The log-variance head. -/
theorem logvar_eq : val_main_v6 (F := Ideal) x adj W1 W3 = head (hidden x adj W1) adj W3 := by
  show Host.dotGeneral (F := Ideal) (φ₁ := .f32) (φ₂ := .f32) (DotDims.plain 10000 10000 16) none adj
      (Host.dotGeneral (F := Ideal) (φ₁ := .f32) (φ₂ := .f32) (DotDims.plain 10000 32 16) none (val_main_v2 (F := Ideal) x adj W1) W3) = _
  rw [hostDot_eq_mm, hostDot_eq_mm, hidden_eq]
  rfl

/-- The reconstruction. -/
theorem pred_eq : val_main_v11 (F := Ideal) x adj W1 W2 Wd1 Wd2 = decode (head (hidden x adj W1) adj W2) adj Wd1 Wd2 := by
  show Host.dotGeneral (F := Ideal) (φ₁ := .f32) (φ₂ := .f32) (DotDims.plain 10000 10000 128) none adj
      (Host.dotGeneral (F := Ideal) (φ₁ := .f32) (φ₂ := .f32) (DotDims.plain 10000 32 128) none
        (maximumf (F := Ideal) (φ := .f32) (Host.dotGeneral (F := Ideal) (φ₁ := .f32) (φ₂ := .f32) (DotDims.plain 10000 10000 32) none adj
          (Host.dotGeneral (F := Ideal) (φ₁ := .f32) (φ₂ := .f32) (DotDims.plain 10000 16 32) none (val_main_v4 (F := Ideal) x adj W1 W2) Wd1))
          (broadcastInDim S10000x32 ![] bcast_S_S10000x32 (constant (F := Ideal) S_ .f32 0x00000000#32))) Wd2) = _
  rw [hostDot_eq_mm, hostDot_eq_mm, hostDot_eq_mm, hostDot_eq_mm, max_zero_eq_relu, mu_eq]
  rfl

end Cert.ReferenceIdeal.RefSpec

end
-- ==== Proof.lean ====
/-
  A graph-convolution autoencoder (10000 nodes, dense adjacency) as eight row-tiled launches, against its
  plain matrix-product reference, on the extended reals.

  With `A ⬝ B` the matrix product, `(A ⬝ B)(p, c) = ∑ k, A(p, k) · B(k, c)`, and `relu` the entrywise maximum
  with zero, the reference computes

      h1 = relu (adj ⬝ (x ⬝ W1)),   mu = adj ⬝ (h1 ⬝ W2),   logvar = adj ⬝ (h1 ⬝ W3),
      pred = adj ⬝ (relu (adj ⬝ (mu ⬝ Wd1)) ⬝ Wd2)

  and returns `(pred, mu, logvar)`.  The kernel computes the same products in row blocks (a block of rows of
  `adj ⬝ S` needs the same rows of `adj` and all of `S`; the blocks tile the rows), keeps a second copy of `adj`
  in a narrower float format (the identity on the extended reals), runs the two encoder heads as one product
  with `[W2 | W3]` and slices the columns apart afterwards, and feeds all 32 columns to the decoder against
  `Wd1` stacked on sixteen zero rows.  The two programs agree entry by entry because an entry of a product
  depends on one column of the right factor only, and because the sixteen extra terms of the decoder's sums are
  products with zero, which vanish on the extended reals whatever the other factor is — so the precondition
  (finite inputs) is not used.

  Modules: `LibMatProduct` (matrix products and their rearrangements), `Spec` (the model), `LibPlainDot` (a launch's or
  the host's matrix product read at an entry),
  `Region0 … Region7` (each launch's result array as a function of the arrays it reads), `RunNamed` (the run
  with the three results named), `Chain` (the buffers' contents from launch to launch), `Bridge` (the kernel's
  results are the model's), `RefSpec` (the reference's results are the model's).
-/
import proofs.«174584_g74380243632355_cont_sun_m_599_2_alg».proof.Defs
import proofs.«174584_g74380243632355_cont_sun_m_599_2_alg».proof.Proof.Gen.Kernel
import proofs.«174584_g74380243632355_cont_sun_m_599_2_alg».proof.Proof.Gen.Kernel.Skeleton
import proofs.«174584_g74380243632355_cont_sun_m_599_2_alg».proof.Proof.Gen.Kernel.Launch
import proofs.«174584_g74380243632355_cont_sun_m_599_2_alg».proof.Proof.Gen.Kernel.Points
import proofs.«174584_g74380243632355_cont_sun_m_599_2_alg».proof.Proof.Gen.Kernel.Frame
import proofs.«174584_g74380243632355_cont_sun_m_599_2_alg».proof.Proof.Gen.KernelIdeal
import proofs.«174584_g74380243632355_cont_sun_m_599_2_alg».proof.Proof.Gen.KernelIdeal.Skeleton
import proofs.«174584_g74380243632355_cont_sun_m_599_2_alg».proof.Proof.Gen.KernelIdeal.Launch
import proofs.«174584_g74380243632355_cont_sun_m_599_2_alg».proof.Proof.Gen.KernelIdeal.Points
import proofs.«174584_g74380243632355_cont_sun_m_599_2_alg».proof.Proof.Gen.KernelIdeal.Frame
import proofs.«174584_g74380243632355_cont_sun_m_599_2_alg».proof.Proof.Gen.ReferenceIdeal
import proofs.«174584_g74380243632355_cont_sun_m_599_2_alg».proof.Proof.Gen.ReferenceIdeal.Run
import proofs.«174584_g74380243632355_cont_sun_m_599_2_alg».proof.Proof.Gen.ReferenceIdeal.Read
import proofs.«174584_g74380243632355_cont_sun_m_599_2_alg».proof.Proof.Gen.Pre_finite_inputs
import proofs.«174584_g74380243632355_cont_sun_m_599_2_alg».proof.Proof.RunNamed
import proofs.«174584_g74380243632355_cont_sun_m_599_2_alg».proof.Proof.Bridge
import proofs.«174584_g74380243632355_cont_sun_m_599_2_alg».proof.Proof.RefSpec
import Idealize.ShloMosaic.Adequacy
import Idealize.ShloMosaic.Init

noncomputable section

namespace Cert.Proof

open Idealize.ShloMosaic Idealize.ShloMosaic.TcCoe Idealize.SL.Sem
open Cert.Gcn Cert.Lib.MatProduct Cert.KernelIdeal.Chain

/-- The kernel as printed runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments unchanged: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing of the kernel was rewritten to read it on the extended reals. -/
theorem preserves : Cert.preserves_Kernel_KernelIdeal := trivial

/-- From memories agreeing on the seven arguments both programs end with the reconstruction decoded from the mean
    head, the mean head and the log-variance head of the model, entry by entry. -/
theorem algebraic : Cert.algebraic_KernelIdeal_ReferenceIdeal := by
  intro m ρ m' ρ' _ hagree
  refine ⟨fun c => decode (head (Cert.KernelIdeal.Bridge.H m c) (aAdj m c) (aW2 m c)) (aAdj m c) (aWd1 m c) (aWd2 m c),
    fun c => head (Cert.KernelIdeal.Bridge.H m c) (aAdj m c) (aW2 m c),
    fun c => head (Cert.KernelIdeal.Bridge.H m c) (aAdj m c) (aW3 m c), ?_, ?_⟩
  · refine (θ_run Cert.KernelIdeal.defs _ _).mono (fun r h c => ?_) (Cert.KernelIdeal.Named.run (F := Ideal) m ρ)
    obtain ⟨h0, h1, h2, hargs⟩ := h c
    exact ⟨h0.trans (Cert.KernelIdeal.Bridge.pred_eq m ρ c), h1.trans (Cert.KernelIdeal.Bridge.mu_eq m ρ c),
      h2.trans (Cert.KernelIdeal.Bridge.logvar_eq m ρ c), hargs⟩
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6⟩ := hagree c
    refine ⟨h0.trans ?_, h1.trans ?_, h2.trans ?_, hargs⟩
    · rw [a0, a1, a2, a3, a5, a6]
      exact Cert.ReferenceIdeal.RefSpec.pred_eq (aX m c) (aAdj m c) (aW1 m c) (aW2 m c) (aWd1 m c) (aWd2 m c)
    · rw [a0, a1, a2, a3]
      exact Cert.ReferenceIdeal.RefSpec.mu_eq (aX m c) (aAdj m c) (aW1 m c) (aW2 m c)
    · rw [a0, a1, a2, a4]
      exact Cert.ReferenceIdeal.RefSpec.logvar_eq (aX m c) (aAdj m c) (aW1 m c) (aW3 m c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
